-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1000000 : Shape := ⟨2, ![2, 1000000]⟩
abbrev S3x64x64 : Shape := ⟨3, ![3, 64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S3x64x64 .f32) (main_arg7 : FVec F S64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x1000000 32) (main_arg2 : FVec F S3x64x64 .f32) (main_arg3 : FVec F S64 .f32) (main_arg4 : FVec F S3x64x64 .f32) (main_arg5 : FVec F S64 .f32) (main_arg6 : FVec F S3x64x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_v13 main_v16
-- ==== Kernel.lean ====
abbrev S50000x64 : Shape := ⟨2, ![50000, 64]⟩
abbrev S2x1000000 : Shape := ⟨2, ![2, 1000000]⟩
abbrev S3x64x64 : Shape := ⟨3, ![3, 64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S50000 : Shape := ⟨1, ![50000]⟩
abbrev S1000000x1 : Shape := ⟨2, ![1000000, 1]⟩
abbrev S1000000x64 : Shape := ⟨2, ![1000000, 64]⟩
abbrev S5000x64 : Shape := ⟨2, ![5000, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 160
  | .vmem => 30
  | .smem => 0
  | _ => 0

abbrev hbmTy0_0 (i : Nat) : BufTy := match i % 128 with
  | 0 => ⟨S50000x64, .f32⟩
  | 1 => ⟨S2x1000000, .i32⟩
  | 2 => ⟨S3x64x64, .f32⟩
  | 3 => ⟨S64, .f32⟩
  | 4 => ⟨S3x64x64, .f32⟩
  | 5 => ⟨S64, .f32⟩
  | 6 => ⟨S3x64x64, .f32⟩
  | 7 => ⟨S64, .f32⟩
  | 8 => ⟨S1x1000000, .i32⟩
  | 9 => ⟨S1000000, .i32⟩
  | 10 => ⟨S1x1000000, .i32⟩
  | 11 => ⟨S1000000, .i32⟩
  | 12 => ⟨S_, .f32⟩
  | 13 => ⟨S1000000, .f32⟩
  | 14 => ⟨S_, .f32⟩
  | 15 => ⟨S50000, .f32⟩
  | 16 => ⟨S1000000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000, .f32⟩
  | 47 => ⟨S1000000, .f32⟩
  | 48 => ⟨S1000000, .f32⟩
  | 49 => ⟨S1000000x1, .f32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000x64, .f32⟩
  | 59 => ⟨S1000000x64, .f32⟩
  | 60 => ⟨S1000000x64, .f32⟩
  | 61 => ⟨S_, .f32⟩
  | 62 => ⟨S50000x64, .f32⟩
  | 63 => ⟨S1000000x1, .i32⟩
  | 64 => ⟨S50000x64, .f32⟩
  | 65 => ⟨S1000000x1, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x64, .f32⟩
  | 75 => ⟨S1000000x64, .f32⟩
  | 76 => ⟨S1000000x64, .f32⟩
  | 77 => ⟨S_, .f32⟩
  | 78 => ⟨S50000x64, .f32⟩
  | 79 => ⟨S1000000x1, .i32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S50000x64, .f32⟩
  | 86 => ⟨S1000000x1, .f32⟩
  | 87 => ⟨S_, .i32⟩
  | 88 => ⟨S1000000, .i32⟩
  | 89 => ⟨S1000000, .i1⟩
  | 90 => ⟨S_, .i32⟩
  | 91 => ⟨S1000000, .i32⟩
  | 92 => ⟨S1000000, .i32⟩
  | 93 => ⟨S1000000, .i32⟩
  | 94 => ⟨S1000000x1, .i32⟩
  | 95 => ⟨S1000000x64, .f32⟩
  | 96 => ⟨S1000000x64, .f32⟩
  | 97 => ⟨S1000000x64, .f32⟩
  | 98 => ⟨S_, .f32⟩
  | 99 => ⟨S50000x64, .f32⟩
  | 100 => ⟨S1000000x1, .i32⟩
  | 101 => ⟨S50000x64, .f32⟩
  | 102 => ⟨S1000000x1, .f32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x64, .f32⟩
  | 112 => ⟨S1000000x64, .f32⟩
  | 113 => ⟨S1000000x64, .f32⟩
  | 114 => ⟨S_, .f32⟩
  | 115 => ⟨S50000x64, .f32⟩
  | 116 => ⟨S1000000x1, .i32⟩
  | 117 => ⟨S50000x64, .f32⟩
  | 118 => ⟨S_, .f32⟩
  | 119 => ⟨S50000x64, .f32⟩
  | 120 => ⟨S50000x64, .f32⟩
  | 121 => ⟨S50000x64, .f32⟩
  | 122 => ⟨S50000x64, .f32⟩
  | 123 => ⟨S1000000x1, .f32⟩
  | 124 => ⟨S_, .i32⟩
  | 125 => ⟨S1000000, .i32⟩
  | 126 => ⟨S1000000, .i1⟩
  | 127 => ⟨S_, .i32⟩
  | _ => ⟨S50000x64, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000x64, .f32⟩
  | 5 => ⟨S1000000x64, .f32⟩
  | 6 => ⟨S1000000x64, .f32⟩
  | 7 => ⟨S_, .f32⟩
  | 8 => ⟨S50000x64, .f32⟩
  | 9 => ⟨S1000000x1, .i32⟩
  | 10 => ⟨S50000x64, .f32⟩
  | 11 => ⟨S1000000x1, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x64, .f32⟩
  | 21 => ⟨S1000000x64, .f32⟩
  | 22 => ⟨S1000000x64, .f32⟩
  | 23 => ⟨S_, .f32⟩
  | 24 => ⟨S50000x64, .f32⟩
  | 25 => ⟨S1000000x1, .i32⟩
  | 26 => ⟨S50000x64, .f32⟩
  | 27 => ⟨S_, .f32⟩
  | 28 => ⟨S50000x64, .f32⟩
  | 29 => ⟨S50000x64, .f32⟩
  | 30 => ⟨S50000x64, .f32⟩
  | 31 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S3x64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S3x64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S3x64x64, .f32⟩
  | .local _ .vmem, ⟨27, _⟩ => ⟨S64, .f32⟩
  | .local _ .vmem, ⟨28, _⟩ => ⟨S5000x64, .f32⟩
  | .local _ .vmem, ⟨29, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_20 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_21 : Ref sig .tc := ⟨.hbm, 124, rfl⟩
abbrev main_v91 : Ref sig .tc := ⟨.hbm, 125, rfl⟩
abbrev main_v92 : Ref sig .tc := ⟨.hbm, 126, rfl⟩
abbrev main_c_22 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_23 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_24 : Ref sig .tc := ⟨.hbm, 140, rfl⟩
abbrev main_v104 : Ref sig .tc := ⟨.hbm, 141, rfl⟩
abbrev main_v105 : Ref sig .tc := ⟨.hbm, 142, rfl⟩
abbrev main_c_25 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_26 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_27 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x64.size a ≤ S3x64x64.size a
  hwx1_3 : ∀ i : grid1.Coords, EltTy.bits .f32 = 32 ∨ (Rect.block (s := S3x64x64) S3x64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x64x64.size a ≤ S3x64x64.size a
  hwx2_3 : ∀ i : grid2.Coords, EltTy.bits .f32 = 32 ∨ (Rect.block (s := S3x64x64) S3x64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v59) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v88) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S3x64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v89) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v89) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v102) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v118) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S3x64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v119) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x1000000 : Shape := ⟨2, ![2, 1000000]⟩
abbrev S3x64x64 : Shape := ⟨3, ![3, 64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S50000 : Shape := ⟨1, ![50000]⟩
abbrev S1000000x1 : Shape := ⟨2, ![1000000, 1]⟩
abbrev S1x64x64 : Shape := ⟨3, ![1, 64, 64]⟩
abbrev S64x64 : Shape := ⟨2, ![64, 64]⟩
abbrev S1000000x64 : Shape := ⟨2, ![1000000, 64]⟩
abbrev S1x64 : Shape := ⟨2, ![1, 64]⟩

abbrev nBuf : Space → Nat
  | .hbm => 279
  | .vmem => 0
  | .smem => 0
  | _ => 0

abbrev hbmTy0_0 (i : Nat) : BufTy := match i % 128 with
  | 0 => ⟨S50000x64, .f32⟩
  | 1 => ⟨S2x1000000, .i32⟩
  | 2 => ⟨S3x64x64, .f32⟩
  | 3 => ⟨S64, .f32⟩
  | 4 => ⟨S3x64x64, .f32⟩
  | 5 => ⟨S64, .f32⟩
  | 6 => ⟨S3x64x64, .f32⟩
  | 7 => ⟨S64, .f32⟩
  | 8 => ⟨S1x1000000, .i32⟩
  | 9 => ⟨S1000000, .i32⟩
  | 10 => ⟨S1x1000000, .i32⟩
  | 11 => ⟨S1000000, .i32⟩
  | 12 => ⟨S_, .f32⟩
  | 13 => ⟨S1000000, .f32⟩
  | 14 => ⟨S_, .f32⟩
  | 15 => ⟨S50000, .f32⟩
  | 16 => ⟨S1000000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000, .f32⟩
  | 47 => ⟨S1000000, .f32⟩
  | 48 => ⟨S1000000, .f32⟩
  | 49 => ⟨S1x64x64, .f32⟩
  | 50 => ⟨S64x64, .f32⟩
  | 51 => ⟨S50000x64, .f32⟩
  | 52 => ⟨S1000000x1, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x64, .f32⟩
  | 62 => ⟨S1000000x64, .f32⟩
  | 63 => ⟨S1000000x64, .f32⟩
  | 64 => ⟨S_, .f32⟩
  | 65 => ⟨S50000x64, .f32⟩
  | 66 => ⟨S1000000x1, .i32⟩
  | 67 => ⟨S50000x64, .f32⟩
  | 68 => ⟨S1x64x64, .f32⟩
  | 69 => ⟨S64x64, .f32⟩
  | 70 => ⟨S50000x64, .f32⟩
  | 71 => ⟨S50000x64, .f32⟩
  | 72 => ⟨S1000000x1, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x64, .f32⟩
  | 82 => ⟨S1000000x64, .f32⟩
  | 83 => ⟨S1000000x64, .f32⟩
  | 84 => ⟨S_, .f32⟩
  | 85 => ⟨S50000x64, .f32⟩
  | 86 => ⟨S1000000x1, .i32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S1x64x64, .f32⟩
  | 93 => ⟨S64x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S_, .f32⟩
  | 103 => ⟨S1000000, .f32⟩
  | 104 => ⟨S_, .f32⟩
  | 105 => ⟨S50000, .f32⟩
  | 106 => ⟨S1000000x1, .i32⟩
  | 107 => ⟨S50000, .f32⟩
  | 108 => ⟨S_, .f32⟩
  | 109 => ⟨S50000, .f32⟩
  | 110 => ⟨S50000, .i1⟩
  | 111 => ⟨S_, .f32⟩
  | 112 => ⟨S50000, .f32⟩
  | 113 => ⟨S50000, .f32⟩
  | 114 => ⟨S50000, .f32⟩
  | 115 => ⟨S_, .f32⟩
  | 116 => ⟨S_, .f32⟩
  | 117 => ⟨S50000, .f32⟩
  | 118 => ⟨S50000, .f32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000, .f32⟩
  | _ => ⟨S50000x64, .f32⟩

abbrev hbmTy0_1 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000, .f32⟩
  | 9 => ⟨S1000000, .f32⟩
  | 10 => ⟨S1000000, .f32⟩
  | 11 => ⟨S1x64x64, .f32⟩
  | 12 => ⟨S64x64, .f32⟩
  | 13 => ⟨S50000x64, .f32⟩
  | 14 => ⟨S1000000x1, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x64, .f32⟩
  | 24 => ⟨S1000000x64, .f32⟩
  | 25 => ⟨S1000000x64, .f32⟩
  | 26 => ⟨S_, .f32⟩
  | 27 => ⟨S50000x64, .f32⟩
  | 28 => ⟨S1000000x1, .i32⟩
  | 29 => ⟨S50000x64, .f32⟩
  | 30 => ⟨S1x64x64, .f32⟩
  | 31 => ⟨S64x64, .f32⟩
  | 32 => ⟨S50000x64, .f32⟩
  | 33 => ⟨S50000x64, .f32⟩
  | 34 => ⟨S1000000x1, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S1000000x64, .f32⟩
  | 45 => ⟨S1000000x64, .f32⟩
  | 46 => ⟨S_, .f32⟩
  | 47 => ⟨S50000x64, .f32⟩
  | 48 => ⟨S1000000x1, .i32⟩
  | 49 => ⟨S50000x64, .f32⟩
  | 50 => ⟨S_, .f32⟩
  | 51 => ⟨S50000x64, .f32⟩
  | 52 => ⟨S50000x64, .f32⟩
  | 53 => ⟨S50000x64, .f32⟩
  | 54 => ⟨S1x64x64, .f32⟩
  | 55 => ⟨S64x64, .f32⟩
  | 56 => ⟨S50000x64, .f32⟩
  | 57 => ⟨S50000x64, .f32⟩
  | 58 => ⟨S1x64, .f32⟩
  | 59 => ⟨S50000x64, .f32⟩
  | 60 => ⟨S50000x64, .f32⟩
  | 61 => ⟨S_, .f32⟩
  | 62 => ⟨S50000x64, .f32⟩
  | 63 => ⟨S50000x64, .f32⟩
  | 64 => ⟨S_, .f32⟩
  | 65 => ⟨S1000000, .f32⟩
  | 66 => ⟨S_, .f32⟩
  | 67 => ⟨S50000, .f32⟩
  | 68 => ⟨S1000000x1, .i32⟩
  | 69 => ⟨S50000, .f32⟩
  | 70 => ⟨S_, .f32⟩
  | 71 => ⟨S50000, .f32⟩
  | 72 => ⟨S50000, .i1⟩
  | 73 => ⟨S_, .f32⟩
  | 74 => ⟨S50000, .f32⟩
  | 75 => ⟨S50000, .f32⟩
  | 76 => ⟨S50000, .f32⟩
  | 77 => ⟨S_, .f32⟩
  | 78 => ⟨S_, .f32⟩
  | 79 => ⟨S50000, .f32⟩
  | 80 => ⟨S50000, .f32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000, .f32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000, .f32⟩
  | 99 => ⟨S1000000, .f32⟩
  | 100 => ⟨S1000000, .f32⟩
  | 101 => ⟨S1x64x64, .f32⟩
  | 102 => ⟨S64x64, .f32⟩
  | 103 => ⟨S50000x64, .f32⟩
  | 104 => ⟨S1000000x1, .f32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x64, .f32⟩
  | 114 => ⟨S1000000x64, .f32⟩
  | 115 => ⟨S1000000x64, .f32⟩
  | 116 => ⟨S_, .f32⟩
  | 117 => ⟨S50000x64, .f32⟩
  | 118 => ⟨S1000000x1, .i32⟩
  | 119 => ⟨S50000x64, .f32⟩
  | 120 => ⟨S1x64x64, .f32⟩
  | 121 => ⟨S64x64, .f32⟩
  | 122 => ⟨S50000x64, .f32⟩
  | 123 => ⟨S50000x64, .f32⟩
  | 124 => ⟨S1000000x1, .f32⟩
  | 125 => ⟨S_, .i32⟩
  | 126 => ⟨S1000000, .i32⟩
  | 127 => ⟨S1000000, .i1⟩
  | _ => ⟨S50000x64, .f32⟩

abbrev hbmTy0_2 (i : Nat) : BufTy := match i % 128 with
  | 0 => ⟨S_, .i32⟩
  | 1 => ⟨S1000000, .i32⟩
  | 2 => ⟨S1000000, .i32⟩
  | 3 => ⟨S1000000, .i32⟩
  | 4 => ⟨S1000000x1, .i32⟩
  | 5 => ⟨S1000000x64, .f32⟩
  | 6 => ⟨S1000000x64, .f32⟩
  | 7 => ⟨S1000000x64, .f32⟩
  | 8 => ⟨S_, .f32⟩
  | 9 => ⟨S50000x64, .f32⟩
  | 10 => ⟨S1000000x1, .i32⟩
  | 11 => ⟨S50000x64, .f32⟩
  | 12 => ⟨S_, .f32⟩
  | 13 => ⟨S50000x64, .f32⟩
  | 14 => ⟨S50000x64, .f32⟩
  | 15 => ⟨S50000x64, .f32⟩
  | 16 => ⟨S1x64x64, .f32⟩
  | 17 => ⟨S64x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call1_cst : Ref sig .tc := ⟨.hbm, 99, rfl⟩
abbrev main_call1_v0 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_16 : Ref sig .tc := ⟨.hbm, 108, rfl⟩
abbrev main_v78 : Ref sig .tc := ⟨.hbm, 109, rfl⟩
abbrev main_v79 : Ref sig .tc := ⟨.hbm, 110, rfl⟩
abbrev main_cst_17 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_18 : Ref sig .tc := ⟨.hbm, 115, rfl⟩
abbrev main_call2_v0 : Ref sig .tc := ⟨.hbm, 116, rfl⟩
abbrev main_call2_v1 : Ref sig .tc := ⟨.hbm, 117, rfl⟩
abbrev main_v83 : Ref sig .tc := ⟨.hbm, 118, rfl⟩
abbrev main_c_19 : Ref sig .tc := ⟨.hbm, 119, rfl⟩
abbrev main_v84 : Ref sig .tc := ⟨.hbm, 120, rfl⟩
abbrev main_v85 : Ref sig .tc := ⟨.hbm, 121, rfl⟩
abbrev main_c_20 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_21 : Ref sig .tc := ⟨.hbm, 128, rfl⟩
abbrev main_v91 : Ref sig .tc := ⟨.hbm, 129, rfl⟩
abbrev main_v92 : Ref sig .tc := ⟨.hbm, 130, rfl⟩
abbrev main_c_22 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_23 : Ref sig .tc := ⟨.hbm, 143, rfl⟩
abbrev main_v104 : Ref sig .tc := ⟨.hbm, 144, rfl⟩
abbrev main_v105 : Ref sig .tc := ⟨.hbm, 145, rfl⟩
abbrev main_c_24 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_25 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_26 : Ref sig .tc := ⟨.hbm, 163, rfl⟩
abbrev main_v121 : Ref sig .tc := ⟨.hbm, 164, rfl⟩
abbrev main_v122 : Ref sig .tc := ⟨.hbm, 165, rfl⟩
abbrev main_c_27 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_28 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_29 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_call3_cst : Ref sig .tc := ⟨.hbm, 189, rfl⟩
abbrev main_call3_v0 : Ref sig .tc := ⟨.hbm, 190, rfl⟩
abbrev main_v143 : Ref sig .tc := ⟨.hbm, 191, rfl⟩
abbrev main_cst_30 : Ref sig .tc := ⟨.hbm, 192, rfl⟩
abbrev main_v144 : Ref sig .tc := ⟨.hbm, 193, rfl⟩
abbrev main_cst_31 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_32 : Ref sig .tc := ⟨.hbm, 198, rfl⟩
abbrev main_v148 : Ref sig .tc := ⟨.hbm, 199, rfl⟩
abbrev main_v149 : Ref sig .tc := ⟨.hbm, 200, rfl⟩
abbrev main_cst_33 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_34 : Ref sig .tc := ⟨.hbm, 205, rfl⟩
abbrev main_call4_v0 : Ref sig .tc := ⟨.hbm, 206, rfl⟩
abbrev main_call4_v1 : Ref sig .tc := ⟨.hbm, 207, rfl⟩
abbrev main_v153 : Ref sig .tc := ⟨.hbm, 208, rfl⟩
abbrev main_c_35 : Ref sig .tc := ⟨.hbm, 209, rfl⟩
abbrev main_v154 : Ref sig .tc := ⟨.hbm, 210, rfl⟩
abbrev main_v155 : Ref sig .tc := ⟨.hbm, 211, rfl⟩
abbrev main_c_36 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_c_37 : Ref sig .tc := ⟨.hbm, 218, rfl⟩
abbrev main_v161 : Ref sig .tc := ⟨.hbm, 219, rfl⟩
abbrev main_v162 : Ref sig .tc := ⟨.hbm, 220, rfl⟩
abbrev main_c_38 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_c_39 : Ref sig .tc := ⟨.hbm, 233, rfl⟩
abbrev main_v174 : Ref sig .tc := ⟨.hbm, 234, rfl⟩
abbrev main_v175 : Ref sig .tc := ⟨.hbm, 235, rfl⟩
abbrev main_c_40 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_cst_41 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_c_42 : Ref sig .tc := ⟨.hbm, 253, rfl⟩
abbrev main_v191 : Ref sig .tc := ⟨.hbm, 254, rfl⟩
abbrev main_v192 : Ref sig .tc := ⟨.hbm, 255, rfl⟩
abbrev main_c_43 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_cst_44 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_cst_45 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  slices_S3x64x64_S1x64x64_0_0_0 : S3x64x64.Slices ![0, 0, 0] S1x64x64
  shapeCasts_S1x64x64_S64x64 : S1x64x64.ShapeCasts S64x64
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  dot_S50000x64_S64x64_S50000x64_1_0_0_1_n_n_wf : DotDims.WF S50000x64 S64x64 S50000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf

class Facts : Prop extends Facts₀ where

variable [Facts]
-- ==== Proof.KernelRun.lean ====
/-
  The kernel program's run with its result named.

  The kernel program is three pipelined regions among stretches of host operations. Its run terminates without a fault
  in a state whose buffers hold the last boundary's contents: the contents at each boundary are a fold from the launch
  memory — a stretch of host operations applies them in order, a region replaces its arrays by what its pipeline
  leaves. So the arguments end as launched, and the result buffer ends at what the last region's write-backs leave in
  it; the modules beside this one read that fold back layer by layer.
-/
import proofs.«147090_j7327214207517_1_alg».proof.Proof.Gen.KernelIdeal.Frame

set_option maxRecDepth 16384

noncomputable section

namespace Cert.KernelIdeal.Ran

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting, in a state whose unscoped buffers
    hold the last boundary's contents: whatever follows from that holds of every final state. The launch over the
    segments: the first thread state from what the launch deals, the segments chained boundary to boundary, the last
    thread state read against the final state. -/
theorem ends_at_last_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

/-- The result buffer ends at the last boundary's contents and the arguments end as launched. -/
theorem run : θ_run defs (onTc (τ := τ) (main (F := F))) ⟨m, fun _ => 0, ρ⟩ (fun r => ∀ c : Dev nD,
      r.2.mem ((c.tc : Thread nD τ).loc main_v119) = W8 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  ends_at_last_boundary m ρ fun s h c =>
    ⟨h c _ (mem_uc main_v119 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c)⟩

end Cert.KernelIdeal.Ran

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.Payload.lean ====
/-
  One Chebyshev combine step on a block of 5000 rows, read at an entry.

  The kernel body loads three blocks `x₀, x₁, x₂` of 5000 rows (the features and their two Chebyshev transforms), the
  three 64×64 slabs `w₀, w₁, w₂` of the layer's weights and the bias row `b`, and stores
  `((x₀ w₀ + x₁ w₁) + x₂ w₂) + b`, rectified by `max(·, 0)` in the two hidden layers. On the extended reals the
  roundings to bf16 in front of each product are the identity and a product into a zero accumulator is the plain sum
  over the contracted axis, so entry `(p, q)` of the stored block is
  `((∑ₖ x₀[p,k] w₀[k,q] + ∑ₖ x₁[p,k] w₁[k,q]) + ∑ₖ x₂[p,k] w₂[k,q]) + b[q]`.
-/
import proofs.«147090_j7327214207517_1_alg».proof.Proof.Gen.KernelIdeal.Skeleton
import proofs.«147090_j7327214207517_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.Combine

open Idealize.ShloMosaic Idealize.ShloMosaic.ValueIdx Cert.KernelIdeal Cert.KernelIdeal.Gen

/-- Entry `(p, q)` of a block of rows times one 64×64 slab: `∑ₖ x[p,k] · w[0,k,q]`. -/
def slabDot (x : FVec Ideal S5000x64 .f32) (w : FVec Ideal S1x64x64 .f32) (p : Fin 5000) (q : Fin 64) : EReal :=
  ∑ k : Fin 64, x (ix2 p k) * w (ix3 (0 : Fin 1) k q)

/-- Entry `(p, q)` of the block before the rectifier. -/
def blockPre (x0 x1 x2 : FVec Ideal S5000x64 .f32) (w0 w1 w2 : FVec Ideal S1x64x64 .f32) (b : FVec Ideal S64 .f32)
    (p : Fin 5000) (q : Fin 64) : EReal :=
  ((slabDot x0 w0 p q + slabDot x1 w1 p q) + slabDot x2 w2 p q) + b (ix1 q)

/-- The left operand's index of the block product at `(p, q)`, at the contraction index of coordinate `k`: `(p, k)`. -/
theorem lhs_at (p : Fin 5000) (q : Fin 64) (c : dot_S5000x64_S64x64_S5000x64_1_0_0_1_n_n.contr.Idx) :
    dot_S5000x64_S64x64_S5000x64_1_0_0_1_n_n.lhsIdx (ix2 p q) c
      = ix2 p (ValueIdx.contrEquiv1 dot_S5000x64_S64x64_S5000x64_1_0_0_1_n_n 64 rfl rfl c) :=
  funext fun a => Fin.ext (by
    match a with
    | ⟨0, _⟩ =>
      show (dot_S5000x64_S64x64_S5000x64_1_0_0_1_n_n.lhsIdx (ix2 p q) c 0).val = p.val
      unfold DotDims.lhsIdx
      rw [dif_neg (show ¬(0 : Fin S5000x64.rank) ∈ dot_S5000x64_S64x64_S5000x64_1_0_0_1_n_n.lhsBatch by decide),
        dif_pos (show (0 : Fin S5000x64.rank) ∈ dot_S5000x64_S64x64_S5000x64_1_0_0_1_n_n.lhsNonContracting by decide)]
      rfl
    | ⟨1, _⟩ => exact dot_S5000x64_S64x64_S5000x64_1_0_0_1_n_n.lhsIdx_val_of_single rfl (ix2 p q) c)

/-- The right operand's index of the block product at `(p, q)`, at the contraction index of coordinate `k`: `(k, q)`. -/
theorem rhs_at (p : Fin 5000) (q : Fin 64) (c : dot_S5000x64_S64x64_S5000x64_1_0_0_1_n_n.contr.Idx) :
    dot_S5000x64_S64x64_S5000x64_1_0_0_1_n_n.rhsIdx (ix2 p q) c
      = ix2 (ValueIdx.contrEquiv1 dot_S5000x64_S64x64_S5000x64_1_0_0_1_n_n 64 rfl rfl c) q :=
  funext fun a => Fin.ext (by
    match a with
    | ⟨0, _⟩ => exact dot_S5000x64_S64x64_S5000x64_1_0_0_1_n_n.rhsIdx_val_of_single rfl (ix2 p q) c
    | ⟨1, _⟩ =>
      show (dot_S5000x64_S64x64_S5000x64_1_0_0_1_n_n.rhsIdx (ix2 p q) c 1).val = q.val
      unfold DotDims.rhsIdx
      rw [dif_neg (show ¬(1 : Fin S64x64.rank) ∈ dot_S5000x64_S64x64_S5000x64_1_0_0_1_n_n.rhsBatch by decide),
        dif_pos (show (1 : Fin S64x64.rank) ∈ dot_S5000x64_S64x64_S5000x64_1_0_0_1_n_n.rhsNonContracting by decide)]
      rfl)

/-- One product of the body at an entry: the roundings are the identity, the slab's unit axis is dropped, and the
    product into the zero accumulator is the sum over the contracted axis. -/
theorem product_at (x : FVec Ideal S5000x64 .f32) (w : FVec Ideal S1x64x64 .f32) (p : Fin 5000) (q : Fin 64) :
    matmul dot_S5000x64_S64x64_S5000x64_1_0_0_1_n_n none (truncf .bf16 x bitsLt_bf16_f32)
        (truncf .bf16 (shapeCast S64x64 w shapeCasts_S1x64x64_S64x64) bitsLt_bf16_f32)
        (constant S5000x64 .f32 0x00000000#32) (ix2 p q)
      = slabDot x w p q := by
  refine (Cert.LibPlainDot.matmul_zero_apply dot_S5000x64_S64x64_S5000x64_1_0_0_1_n_n none 64 rfl rfl _ _ (ix2 p q)
    (fun k => ix2 p k) (fun k => ix2 k q) (lhs_at p q) (rhs_at p q)).trans ?_
  unfold slabDot
  refine Finset.sum_congr rfl fun k _ => ?_
  rw [truncf_apply, truncf_apply, shapeCast_1ab_ab_apply]

/-- The bias row, given a unit axis and broadcast over the rows, at an entry. -/
theorem bias_at (b : FVec Ideal S64 .f32) (p : Fin 5000) (q : Fin 64) :
    broadcastTo S5000x64 (shapeCast S1x64 b shapeCasts_S64_S1x64) broadcasts_S1x64_S5000x64 (ix2 p q) = b (ix1 q) := by
  rw [broadcastTo_1b_ab_apply, shapeCast_a_1a_apply]

/-- Layer 1's stored block at an entry. -/
theorem pay0_at (x0 x1 x2 : FVec Ideal S5000x64 .f32) (w0 w1 w2 : FVec Ideal S1x64x64 .f32) (b : FVec Ideal S64 .f32)
    (p : Fin 5000) (q : Fin 64) :
    k0_pay1 (F := Ideal) x0 x1 x2 w0 w1 w2 b (ix2 p q) = max (blockPre x0 x1 x2 w0 w1 w2 b p q) (Ideal.ofBits .f32 0x00000000#32) := by
  unfold k0_pay1 blockPre
  simp only [shapeCast_self]
  refine congrArg₂ max (congrArg₂ (· + ·) (congrArg₂ (· + ·) (congrArg₂ (· + ·) (product_at x0 w0 p q) (product_at x1 w1 p q))
    (product_at x2 w2 p q)) (bias_at b p q)) rfl

/-- Layer 2's stored block at an entry. -/
theorem pay1_at (x0 x1 x2 : FVec Ideal S5000x64 .f32) (w0 w1 w2 : FVec Ideal S1x64x64 .f32) (b : FVec Ideal S64 .f32)
    (p : Fin 5000) (q : Fin 64) :
    k1_pay1 (F := Ideal) x0 x1 x2 w0 w1 w2 b (ix2 p q) = max (blockPre x0 x1 x2 w0 w1 w2 b p q) (Ideal.ofBits .f32 0x00000000#32) := by
  unfold k1_pay1 blockPre
  simp only [shapeCast_self]
  refine congrArg₂ max (congrArg₂ (· + ·) (congrArg₂ (· + ·) (congrArg₂ (· + ·) (product_at x0 w0 p q) (product_at x1 w1 p q))
    (product_at x2 w2 p q)) (bias_at b p q)) rfl

/-- Layer 3's stored block at an entry: no rectifier. -/
theorem pay2_at (x0 x1 x2 : FVec Ideal S5000x64 .f32) (w0 w1 w2 : FVec Ideal S1x64x64 .f32) (b : FVec Ideal S64 .f32)
    (p : Fin 5000) (q : Fin 64) :
    k2_pay1 (F := Ideal) x0 x1 x2 w0 w1 w2 b (ix2 p q) = blockPre x0 x1 x2 w0 w1 w2 b p q := by
  unfold k2_pay1 blockPre
  simp only [shapeCast_self]
  exact congrArg₂ (· + ·) (congrArg₂ (· + ·) (congrArg₂ (· + ·) (product_at x0 w0 p q) (product_at x1 w1 p q))
    (product_at x2 w2 p q)) (bias_at b p q)

/-! ## The layer on whole arrays -/

/-- Entry `i = (r, q)` of `X · W[s]` for a whole feature array `X` and slab `s` of the weights: `∑ₖ X[r,k] · W[s,k,q]`. -/
def rowDot (X : FVec Ideal S50000x64 .f32) (W : FVec Ideal S3x64x64 .f32) (s : Fin 3) (i : S50000x64.Idx) : EReal :=
  ∑ k : Fin 64, X (ix2 (i 0) k) * W (ix3 s k (i 1))

/-- The layer before the rectifier, on whole arrays: `((H W₀ + T₁ W₁) + T₂ W₂) + b` at `i`. -/
def layerPre (H T1 T2 : FVec Ideal S50000x64 .f32) (W : FVec Ideal S3x64x64 .f32) (b : FVec Ideal S64 .f32) :
    FVec Ideal S50000x64 .f32 :=
  fun i => ((rowDot H W 0 i + rowDot T1 W 1 i) + rowDot T2 W 2 i) + b (ix1 (i 1))

/-- A hidden layer on whole arrays: the rectified `layerPre`. -/
def layerRelu (H T1 T2 : FVec Ideal S50000x64 .f32) (W : FVec Ideal S3x64x64 .f32) (b : FVec Ideal S64 .f32) :
    FVec Ideal S50000x64 .f32 :=
  fun i => max (layerPre H T1 T2 W b i) (Ideal.ofBits .f32 0x00000000#32)

end Cert.Combine

end
-- ==== Proof.Region0.lean ====
/-
  Region 0: the first layer's combine as one function of the arrays the region finds.

  The region's grid has ten points; point `t` stages rows `5000·t … 5000·t + 4999` of the three feature arrays, the
  whole weight array and the whole bias, and writes back the same rows of the output. What point `t` writes back is
  block `t` of ONE whole-array function of the five input arrays — the layer read row by row — because an output
  row depends on the same row of each feature array only. The ten blocks tile the output array, so after the region
  the output array IS that function of the arrays as the region found them.
-/
import proofs.«147090_j7327214207517_1_alg».proof.Proof.Gen.KernelIdeal.Frame
import proofs.«147090_j7327214207517_1_alg».proof.Proof.Payload

set_option maxRecDepth 16384

noncomputable section

namespace Cert.KernelIdeal.Region0

open Idealize.ShloMosaic Idealize.ShloMosaic.TcCoe Idealize.ShloMosaic.ValueIdx
open Idealize.ShloMosaic.Pipeline (Dat Cfg Window)
open Cert.KernelIdeal Cert.KernelIdeal.Gen Cert.Combine

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The layer on the arrays region 0 finds in its five input buffers. -/
abbrev G (c : Dev nD) : FVec Ideal S50000x64 .f32 :=
  layerRelu (V c main_arg0) (V c main_v42) (V c main_v58) (V c main_arg2) (V c main_arg3)

/-- The printed index maps, decided over the grid: the three feature windows move with the output window along the
    rows and sit at column block 0; the weights and the bias stay at block 0; the output's row block is the point. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (1 : Fin 2) = 0 ∧ win0_5.index t (0 : Fin 2) ≤ 9 :=
  (by decide +kernel : ∀ t : Fin grid0.N, _)

/-- Every row block of the output is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

set_option maxHeartbeats 2000000 in
/-- What point `t` writes back is block `t` of the layer of the arrays the region found. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero zero2]
  simp only [View.ld_unit_zero (S := S5000x64) zero2, View.ld_unit_zero (S := S64) zero1]
  obtain ⟨e00, e01, e10, e11, e20, e21, e30, e31, e32, e40, e51, e50⟩ := idx_facts t
  funext j
  obtain ⟨p, q, rfl⟩ : ∃ (p : Fin 5000) (q : Fin 64), j = ix2 p q := ⟨j 0, j 1, eq_ix2 j⟩
  refine (pay0_at (iblk0 V c 0 t) (iblk0 V c 1 t) (iblk0 V c 2 t) (View.ld (iblk0 V c 3 t) r0_1)
    (View.ld (iblk0 V c 3 t) r0_2) (View.ld (iblk0 V c 3 t) r0_3) (iblk0 V c 4 t) p q).trans ?_
  show _ = G V c (((cfg0.win 5).blk t).view.emb (ix2 p q))
  have hi0 : ((((cfg0.win 5).blk t).view.emb (ix2 p q)) 0).val = win0_5.index t (0 : Fin 2) * 5000 + 1 * p.val := rfl
  have hi1 : ((((cfg0.win 5).blk t).view.emb (ix2 p q)) 1).val = win0_5.index t (1 : Fin 2) * 64 + 1 * q.val := rfl
  generalize ((cfg0.win 5).blk t).view.emb (ix2 p q) = i at hi0 hi1
  -- a feature block's row p, column k is the array's row of i, column k
  have hx0 : ∀ k : Fin 64, iblk0 V c 0 t (ix2 p k) = (V c main_arg0 : S50000x64.Idx → EReal) (ix2 (i 0) k) := fun k => by
    show (V c main_arg0 : S50000x64.Idx → EReal) (((cfg0.win 0).blk t).view.emb (ix2 p k)) = _
    refine congrArg _ (funext fun a => Fin.ext ?_)
    match a with
    | ⟨0, _⟩ => show win0_0.index t (0 : Fin 2) * 5000 + 1 * p.val = (i 0).val; omega
    | ⟨1, _⟩ => show win0_0.index t (1 : Fin 2) * 64 + 1 * k.val = k.val; omega
  have hx1 : ∀ k : Fin 64, iblk0 V c 1 t (ix2 p k) = (V c main_v42 : S50000x64.Idx → EReal) (ix2 (i 0) k) := fun k => by
    show (V c main_v42 : S50000x64.Idx → EReal) (((cfg0.win 1).blk t).view.emb (ix2 p k)) = _
    refine congrArg _ (funext fun a => Fin.ext ?_)
    match a with
    | ⟨0, _⟩ => show win0_1.index t (0 : Fin 2) * 5000 + 1 * p.val = (i 0).val; omega
    | ⟨1, _⟩ => show win0_1.index t (1 : Fin 2) * 64 + 1 * k.val = k.val; omega
  have hx2 : ∀ k : Fin 64, iblk0 V c 2 t (ix2 p k) = (V c main_v58 : S50000x64.Idx → EReal) (ix2 (i 0) k) := fun k => by
    show (V c main_v58 : S50000x64.Idx → EReal) (((cfg0.win 2).blk t).view.emb (ix2 p k)) = _
    refine congrArg _ (funext fun a => Fin.ext ?_)
    match a with
    | ⟨0, _⟩ => show win0_2.index t (0 : Fin 2) * 5000 + 1 * p.val = (i 0).val; omega
    | ⟨1, _⟩ => show win0_2.index t (1 : Fin 2) * 64 + 1 * k.val = k.val; omega
  -- slab s of the staged weights at (0, k, q) is the weight array at (s, k, column of i)
  have hw0 : ∀ k : Fin 64, View.ld (iblk0 V c 3 t) r0_1 (ix3 (0 : Fin 1) k q) = (V c main_arg2 : S3x64x64.Idx → EReal) (ix3 (0 : Fin 3) k (i 1)) := fun k => by
    show (V c main_arg2 : S3x64x64.Idx → EReal) (((cfg0.win 3).blk t).view.emb (r0_1.emb (ix3 (0 : Fin 1) k q))) = _
    refine congrArg _ (funext fun a => Fin.ext ?_)
    match a with
    | ⟨0, _⟩ => show win0_3.index t (0 : Fin 3) * 3 + 1 * (0 + 1 * 0) = 0; omega
    | ⟨1, _⟩ => show win0_3.index t (1 : Fin 3) * 64 + 1 * (0 + 1 * k.val) = k.val; omega
    | ⟨2, _⟩ => show win0_3.index t (2 : Fin 3) * 64 + 1 * (0 + 1 * q.val) = (i 1).val; omega
  have hw1 : ∀ k : Fin 64, View.ld (iblk0 V c 3 t) r0_2 (ix3 (0 : Fin 1) k q) = (V c main_arg2 : S3x64x64.Idx → EReal) (ix3 (1 : Fin 3) k (i 1)) := fun k => by
    show (V c main_arg2 : S3x64x64.Idx → EReal) (((cfg0.win 3).blk t).view.emb (r0_2.emb (ix3 (0 : Fin 1) k q))) = _
    refine congrArg _ (funext fun a => Fin.ext ?_)
    match a with
    | ⟨0, _⟩ => show win0_3.index t (0 : Fin 3) * 3 + 1 * (1 + 1 * 0) = 1; omega
    | ⟨1, _⟩ => show win0_3.index t (1 : Fin 3) * 64 + 1 * (0 + 1 * k.val) = k.val; omega
    | ⟨2, _⟩ => show win0_3.index t (2 : Fin 3) * 64 + 1 * (0 + 1 * q.val) = (i 1).val; omega
  have hw2 : ∀ k : Fin 64, View.ld (iblk0 V c 3 t) r0_3 (ix3 (0 : Fin 1) k q) = (V c main_arg2 : S3x64x64.Idx → EReal) (ix3 (2 : Fin 3) k (i 1)) := fun k => by
    show (V c main_arg2 : S3x64x64.Idx → EReal) (((cfg0.win 3).blk t).view.emb (r0_3.emb (ix3 (0 : Fin 1) k q))) = _
    refine congrArg _ (funext fun a => Fin.ext ?_)
    match a with
    | ⟨0, _⟩ => show win0_3.index t (0 : Fin 3) * 3 + 1 * (2 + 1 * 0) = 2; omega
    | ⟨1, _⟩ => show win0_3.index t (1 : Fin 3) * 64 + 1 * (0 + 1 * k.val) = k.val; omega
    | ⟨2, _⟩ => show win0_3.index t (2 : Fin 3) * 64 + 1 * (0 + 1 * q.val) = (i 1).val; omega
  have hb : iblk0 V c 4 t (ix1 q) = (V c main_arg3 : S64.Idx → EReal) (ix1 (i 1)) := by
    show (V c main_arg3 : S64.Idx → EReal) (((cfg0.win 4).blk t).view.emb (ix1 q)) = _
    refine congrArg _ (funext fun a => Fin.ext ?_)
    match a with
    | ⟨0, _⟩ => show win0_4.index t (0 : Fin 1) * 64 + 1 * q.val = (i 1).val; omega
  unfold G layerRelu layerPre rowDot blockPre slabDot
  refine congrArg₂ max (congrArg₂ (· + ·) (congrArg₂ (· + ·) (congrArg₂ (· + ·)
    (Finset.sum_congr rfl fun k _ => congrArg₂ (· * ·) (hx0 k) (hw0 k))
    (Finset.sum_congr rfl fun k _ => congrArg₂ (· * ·) (hx1 k) (hw1 k)))
    (Finset.sum_congr rfl fun k _ => congrArg₂ (· * ·) (hx2 k) (hw2 k))) hb) rfl

/-- An index of the output array is in point `t`'s block iff each coordinate is in the block's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v59).slice (win0_5.rect t)).set ↔ _
  rw [View.set_slice_whole, Rect.mem_set_unit]
  exact Iff.rfl

/-- The ten blocks cover the output array: row `r` is in the block of point `r / 5000`. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- After region 0 its output array is the layer of the arrays the region found. -/
theorem arr (c : Dev nD) : (dat0 (F := Ideal) V c).arrAt 5 cfg0.N = G V c :=
  (dat0 (F := Ideal) V c).arrAt_eq_of_cover 5 (G V c) (fun t _ => flushed_eq V c t) (cover)

end Cert.KernelIdeal.Region0

end
-- ==== Proof.Region1.lean ====
/-
  Region 1: the second layer's combine as one function of the arrays the region finds.

  The region's grid has ten points; point `t` stages rows `5000·t … 5000·t + 4999` of the three feature arrays, the
  whole weight array and the whole bias, and writes back the same rows of the output. What point `t` writes back is
  block `t` of ONE whole-array function of the five input arrays — the layer read row by row — because an output
  row depends on the same row of each feature array only. The ten blocks tile the output array, so after the region
  the output array IS that function of the arrays as the region found them.
-/
import proofs.«147090_j7327214207517_1_alg».proof.Proof.Gen.KernelIdeal.Frame
import proofs.«147090_j7327214207517_1_alg».proof.Proof.Payload

set_option maxRecDepth 16384

noncomputable section

namespace Cert.KernelIdeal.Region1

open Idealize.ShloMosaic Idealize.ShloMosaic.TcCoe Idealize.ShloMosaic.ValueIdx
open Idealize.ShloMosaic.Pipeline (Dat Cfg Window)
open Cert.KernelIdeal Cert.KernelIdeal.Gen Cert.Combine

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The layer on the arrays region 1 finds in its five input buffers. -/
abbrev G (c : Dev nD) : FVec Ideal S50000x64 .f32 :=
  layerRelu (V c main_v59) (V c main_v72) (V c main_v88) (V c main_arg4) (V c main_arg5)

/-- The printed index maps, decided over the grid: the three feature windows move with the output window along the
    rows and sit at column block 0; the weights and the bias stay at block 0; the output's row block is the point. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 3) = 0 ∧ win1_3.index t (1 : Fin 3) = 0 ∧ win1_3.index t (2 : Fin 3) = 0
    ∧ win1_4.index t (0 : Fin 1) = 0
    ∧ win1_5.index t (1 : Fin 2) = 0 ∧ win1_5.index t (0 : Fin 2) ≤ 9 :=
  (by decide +kernel : ∀ t : Fin grid1.N, _)

/-- Every row block of the output is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

set_option maxHeartbeats 2000000 in
/-- What point `t` writes back is block `t` of the layer of the arrays the region found. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero zero2]
  simp only [View.ld_unit_zero (S := S5000x64) zero2, View.ld_unit_zero (S := S64) zero1]
  obtain ⟨e00, e01, e10, e11, e20, e21, e30, e31, e32, e40, e51, e50⟩ := idx_facts t
  funext j
  obtain ⟨p, q, rfl⟩ : ∃ (p : Fin 5000) (q : Fin 64), j = ix2 p q := ⟨j 0, j 1, eq_ix2 j⟩
  refine (pay1_at (iblk1 V c 0 t) (iblk1 V c 1 t) (iblk1 V c 2 t) (View.ld (iblk1 V c 3 t) r1_1)
    (View.ld (iblk1 V c 3 t) r1_2) (View.ld (iblk1 V c 3 t) r1_3) (iblk1 V c 4 t) p q).trans ?_
  show _ = G V c (((cfg1.win 5).blk t).view.emb (ix2 p q))
  have hi0 : ((((cfg1.win 5).blk t).view.emb (ix2 p q)) 0).val = win1_5.index t (0 : Fin 2) * 5000 + 1 * p.val := rfl
  have hi1 : ((((cfg1.win 5).blk t).view.emb (ix2 p q)) 1).val = win1_5.index t (1 : Fin 2) * 64 + 1 * q.val := rfl
  generalize ((cfg1.win 5).blk t).view.emb (ix2 p q) = i at hi0 hi1
  -- a feature block's row p, column k is the array's row of i, column k
  have hx0 : ∀ k : Fin 64, iblk1 V c 0 t (ix2 p k) = (V c main_v59 : S50000x64.Idx → EReal) (ix2 (i 0) k) := fun k => by
    show (V c main_v59 : S50000x64.Idx → EReal) (((cfg1.win 0).blk t).view.emb (ix2 p k)) = _
    refine congrArg _ (funext fun a => Fin.ext ?_)
    match a with
    | ⟨0, _⟩ => show win1_0.index t (0 : Fin 2) * 5000 + 1 * p.val = (i 0).val; omega
    | ⟨1, _⟩ => show win1_0.index t (1 : Fin 2) * 64 + 1 * k.val = k.val; omega
  have hx1 : ∀ k : Fin 64, iblk1 V c 1 t (ix2 p k) = (V c main_v72 : S50000x64.Idx → EReal) (ix2 (i 0) k) := fun k => by
    show (V c main_v72 : S50000x64.Idx → EReal) (((cfg1.win 1).blk t).view.emb (ix2 p k)) = _
    refine congrArg _ (funext fun a => Fin.ext ?_)
    match a with
    | ⟨0, _⟩ => show win1_1.index t (0 : Fin 2) * 5000 + 1 * p.val = (i 0).val; omega
    | ⟨1, _⟩ => show win1_1.index t (1 : Fin 2) * 64 + 1 * k.val = k.val; omega
  have hx2 : ∀ k : Fin 64, iblk1 V c 2 t (ix2 p k) = (V c main_v88 : S50000x64.Idx → EReal) (ix2 (i 0) k) := fun k => by
    show (V c main_v88 : S50000x64.Idx → EReal) (((cfg1.win 2).blk t).view.emb (ix2 p k)) = _
    refine congrArg _ (funext fun a => Fin.ext ?_)
    match a with
    | ⟨0, _⟩ => show win1_2.index t (0 : Fin 2) * 5000 + 1 * p.val = (i 0).val; omega
    | ⟨1, _⟩ => show win1_2.index t (1 : Fin 2) * 64 + 1 * k.val = k.val; omega
  -- slab s of the staged weights at (0, k, q) is the weight array at (s, k, column of i)
  have hw0 : ∀ k : Fin 64, View.ld (iblk1 V c 3 t) r1_1 (ix3 (0 : Fin 1) k q) = (V c main_arg4 : S3x64x64.Idx → EReal) (ix3 (0 : Fin 3) k (i 1)) := fun k => by
    show (V c main_arg4 : S3x64x64.Idx → EReal) (((cfg1.win 3).blk t).view.emb (r1_1.emb (ix3 (0 : Fin 1) k q))) = _
    refine congrArg _ (funext fun a => Fin.ext ?_)
    match a with
    | ⟨0, _⟩ => show win1_3.index t (0 : Fin 3) * 3 + 1 * (0 + 1 * 0) = 0; omega
    | ⟨1, _⟩ => show win1_3.index t (1 : Fin 3) * 64 + 1 * (0 + 1 * k.val) = k.val; omega
    | ⟨2, _⟩ => show win1_3.index t (2 : Fin 3) * 64 + 1 * (0 + 1 * q.val) = (i 1).val; omega
  have hw1 : ∀ k : Fin 64, View.ld (iblk1 V c 3 t) r1_2 (ix3 (0 : Fin 1) k q) = (V c main_arg4 : S3x64x64.Idx → EReal) (ix3 (1 : Fin 3) k (i 1)) := fun k => by
    show (V c main_arg4 : S3x64x64.Idx → EReal) (((cfg1.win 3).blk t).view.emb (r1_2.emb (ix3 (0 : Fin 1) k q))) = _
    refine congrArg _ (funext fun a => Fin.ext ?_)
    match a with
    | ⟨0, _⟩ => show win1_3.index t (0 : Fin 3) * 3 + 1 * (1 + 1 * 0) = 1; omega
    | ⟨1, _⟩ => show win1_3.index t (1 : Fin 3) * 64 + 1 * (0 + 1 * k.val) = k.val; omega
    | ⟨2, _⟩ => show win1_3.index t (2 : Fin 3) * 64 + 1 * (0 + 1 * q.val) = (i 1).val; omega
  have hw2 : ∀ k : Fin 64, View.ld (iblk1 V c 3 t) r1_3 (ix3 (0 : Fin 1) k q) = (V c main_arg4 : S3x64x64.Idx → EReal) (ix3 (2 : Fin 3) k (i 1)) := fun k => by
    show (V c main_arg4 : S3x64x64.Idx → EReal) (((cfg1.win 3).blk t).view.emb (r1_3.emb (ix3 (0 : Fin 1) k q))) = _
    refine congrArg _ (funext fun a => Fin.ext ?_)
    match a with
    | ⟨0, _⟩ => show win1_3.index t (0 : Fin 3) * 3 + 1 * (2 + 1 * 0) = 2; omega
    | ⟨1, _⟩ => show win1_3.index t (1 : Fin 3) * 64 + 1 * (0 + 1 * k.val) = k.val; omega
    | ⟨2, _⟩ => show win1_3.index t (2 : Fin 3) * 64 + 1 * (0 + 1 * q.val) = (i 1).val; omega
  have hb : iblk1 V c 4 t (ix1 q) = (V c main_arg5 : S64.Idx → EReal) (ix1 (i 1)) := by
    show (V c main_arg5 : S64.Idx → EReal) (((cfg1.win 4).blk t).view.emb (ix1 q)) = _
    refine congrArg _ (funext fun a => Fin.ext ?_)
    match a with
    | ⟨0, _⟩ => show win1_4.index t (0 : Fin 1) * 64 + 1 * q.val = (i 1).val; omega
  unfold G layerRelu layerPre rowDot blockPre slabDot
  refine congrArg₂ max (congrArg₂ (· + ·) (congrArg₂ (· + ·) (congrArg₂ (· + ·)
    (Finset.sum_congr rfl fun k _ => congrArg₂ (· * ·) (hx0 k) (hw0 k))
    (Finset.sum_congr rfl fun k _ => congrArg₂ (· * ·) (hx1 k) (hw1 k)))
    (Finset.sum_congr rfl fun k _ => congrArg₂ (· * ·) (hx2 k) (hw2 k))) hb) rfl

/-- An index of the output array is in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v89).slice (win1_5.rect t)).set ↔ _
  rw [View.set_slice_whole, Rect.mem_set_unit]
  exact Iff.rfl

/-- The ten blocks cover the output array: row `r` is in the block of point `r / 5000`. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After region 1 its output array is the layer of the arrays the region found. -/
theorem arr (c : Dev nD) : (dat1 (F := Ideal) V c).arrAt 5 cfg1.N = G V c :=
  (dat1 (F := Ideal) V c).arrAt_eq_of_cover 5 (G V c) (fun t _ => flushed_eq V c t) (cover)

end Cert.KernelIdeal.Region1

end
-- ==== Proof.Region2.lean ====
/-
  Region 2: the output layer's combine as one function of the arrays the region finds.

  The region's grid has ten points; point `t` stages rows `5000·t … 5000·t + 4999` of the three feature arrays, the
  whole weight array and the whole bias, and writes back the same rows of the output. What point `t` writes back is
  block `t` of ONE whole-array function of the five input arrays — the layer read row by row — because an output
  row depends on the same row of each feature array only. The ten blocks tile the output array, so after the region
  the output array IS that function of the arrays as the region found them.
-/
import proofs.«147090_j7327214207517_1_alg».proof.Proof.Gen.KernelIdeal.Frame
import proofs.«147090_j7327214207517_1_alg».proof.Proof.Payload

set_option maxRecDepth 16384

noncomputable section

namespace Cert.KernelIdeal.Region2

open Idealize.ShloMosaic Idealize.ShloMosaic.TcCoe Idealize.ShloMosaic.ValueIdx
open Idealize.ShloMosaic.Pipeline (Dat Cfg Window)
open Cert.KernelIdeal Cert.KernelIdeal.Gen Cert.Combine

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The layer on the arrays region 2 finds in its five input buffers. -/
abbrev G (c : Dev nD) : FVec Ideal S50000x64 .f32 :=
  layerPre (V c main_v89) (V c main_v102) (V c main_v118) (V c main_arg6) (V c main_arg7)

/-- The printed index maps, decided over the grid: the three feature windows move with the output window along the
    rows and sit at column block 0; the weights and the bias stay at block 0; the output's row block is the point. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 3) = 0 ∧ win2_3.index t (1 : Fin 3) = 0 ∧ win2_3.index t (2 : Fin 3) = 0
    ∧ win2_4.index t (0 : Fin 1) = 0
    ∧ win2_5.index t (1 : Fin 2) = 0 ∧ win2_5.index t (0 : Fin 2) ≤ 9 :=
  (by decide +kernel : ∀ t : Fin grid2.N, _)

/-- Every row block of the output is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

set_option maxHeartbeats 2000000 in
/-- What point `t` writes back is block `t` of the layer of the arrays the region found. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  unfold out2_5
  rw [View.canon_unit_zero zero2]
  simp only [View.ld_unit_zero (S := S5000x64) zero2, View.ld_unit_zero (S := S64) zero1]
  obtain ⟨e00, e01, e10, e11, e20, e21, e30, e31, e32, e40, e51, e50⟩ := idx_facts t
  funext j
  obtain ⟨p, q, rfl⟩ : ∃ (p : Fin 5000) (q : Fin 64), j = ix2 p q := ⟨j 0, j 1, eq_ix2 j⟩
  refine (pay2_at (iblk2 V c 0 t) (iblk2 V c 1 t) (iblk2 V c 2 t) (View.ld (iblk2 V c 3 t) r2_1)
    (View.ld (iblk2 V c 3 t) r2_2) (View.ld (iblk2 V c 3 t) r2_3) (iblk2 V c 4 t) p q).trans ?_
  show _ = G V c (((cfg2.win 5).blk t).view.emb (ix2 p q))
  have hi0 : ((((cfg2.win 5).blk t).view.emb (ix2 p q)) 0).val = win2_5.index t (0 : Fin 2) * 5000 + 1 * p.val := rfl
  have hi1 : ((((cfg2.win 5).blk t).view.emb (ix2 p q)) 1).val = win2_5.index t (1 : Fin 2) * 64 + 1 * q.val := rfl
  generalize ((cfg2.win 5).blk t).view.emb (ix2 p q) = i at hi0 hi1
  -- a feature block's row p, column k is the array's row of i, column k
  have hx0 : ∀ k : Fin 64, iblk2 V c 0 t (ix2 p k) = (V c main_v89 : S50000x64.Idx → EReal) (ix2 (i 0) k) := fun k => by
    show (V c main_v89 : S50000x64.Idx → EReal) (((cfg2.win 0).blk t).view.emb (ix2 p k)) = _
    refine congrArg _ (funext fun a => Fin.ext ?_)
    match a with
    | ⟨0, _⟩ => show win2_0.index t (0 : Fin 2) * 5000 + 1 * p.val = (i 0).val; omega
    | ⟨1, _⟩ => show win2_0.index t (1 : Fin 2) * 64 + 1 * k.val = k.val; omega
  have hx1 : ∀ k : Fin 64, iblk2 V c 1 t (ix2 p k) = (V c main_v102 : S50000x64.Idx → EReal) (ix2 (i 0) k) := fun k => by
    show (V c main_v102 : S50000x64.Idx → EReal) (((cfg2.win 1).blk t).view.emb (ix2 p k)) = _
    refine congrArg _ (funext fun a => Fin.ext ?_)
    match a with
    | ⟨0, _⟩ => show win2_1.index t (0 : Fin 2) * 5000 + 1 * p.val = (i 0).val; omega
    | ⟨1, _⟩ => show win2_1.index t (1 : Fin 2) * 64 + 1 * k.val = k.val; omega
  have hx2 : ∀ k : Fin 64, iblk2 V c 2 t (ix2 p k) = (V c main_v118 : S50000x64.Idx → EReal) (ix2 (i 0) k) := fun k => by
    show (V c main_v118 : S50000x64.Idx → EReal) (((cfg2.win 2).blk t).view.emb (ix2 p k)) = _
    refine congrArg _ (funext fun a => Fin.ext ?_)
    match a with
    | ⟨0, _⟩ => show win2_2.index t (0 : Fin 2) * 5000 + 1 * p.val = (i 0).val; omega
    | ⟨1, _⟩ => show win2_2.index t (1 : Fin 2) * 64 + 1 * k.val = k.val; omega
  -- slab s of the staged weights at (0, k, q) is the weight array at (s, k, column of i)
  have hw0 : ∀ k : Fin 64, View.ld (iblk2 V c 3 t) r2_1 (ix3 (0 : Fin 1) k q) = (V c main_arg6 : S3x64x64.Idx → EReal) (ix3 (0 : Fin 3) k (i 1)) := fun k => by
    show (V c main_arg6 : S3x64x64.Idx → EReal) (((cfg2.win 3).blk t).view.emb (r2_1.emb (ix3 (0 : Fin 1) k q))) = _
    refine congrArg _ (funext fun a => Fin.ext ?_)
    match a with
    | ⟨0, _⟩ => show win2_3.index t (0 : Fin 3) * 3 + 1 * (0 + 1 * 0) = 0; omega
    | ⟨1, _⟩ => show win2_3.index t (1 : Fin 3) * 64 + 1 * (0 + 1 * k.val) = k.val; omega
    | ⟨2, _⟩ => show win2_3.index t (2 : Fin 3) * 64 + 1 * (0 + 1 * q.val) = (i 1).val; omega
  have hw1 : ∀ k : Fin 64, View.ld (iblk2 V c 3 t) r2_2 (ix3 (0 : Fin 1) k q) = (V c main_arg6 : S3x64x64.Idx → EReal) (ix3 (1 : Fin 3) k (i 1)) := fun k => by
    show (V c main_arg6 : S3x64x64.Idx → EReal) (((cfg2.win 3).blk t).view.emb (r2_2.emb (ix3 (0 : Fin 1) k q))) = _
    refine congrArg _ (funext fun a => Fin.ext ?_)
    match a with
    | ⟨0, _⟩ => show win2_3.index t (0 : Fin 3) * 3 + 1 * (1 + 1 * 0) = 1; omega
    | ⟨1, _⟩ => show win2_3.index t (1 : Fin 3) * 64 + 1 * (0 + 1 * k.val) = k.val; omega
    | ⟨2, _⟩ => show win2_3.index t (2 : Fin 3) * 64 + 1 * (0 + 1 * q.val) = (i 1).val; omega
  have hw2 : ∀ k : Fin 64, View.ld (iblk2 V c 3 t) r2_3 (ix3 (0 : Fin 1) k q) = (V c main_arg6 : S3x64x64.Idx → EReal) (ix3 (2 : Fin 3) k (i 1)) := fun k => by
    show (V c main_arg6 : S3x64x64.Idx → EReal) (((cfg2.win 3).blk t).view.emb (r2_3.emb (ix3 (0 : Fin 1) k q))) = _
    refine congrArg _ (funext fun a => Fin.ext ?_)
    match a with
    | ⟨0, _⟩ => show win2_3.index t (0 : Fin 3) * 3 + 1 * (2 + 1 * 0) = 2; omega
    | ⟨1, _⟩ => show win2_3.index t (1 : Fin 3) * 64 + 1 * (0 + 1 * k.val) = k.val; omega
    | ⟨2, _⟩ => show win2_3.index t (2 : Fin 3) * 64 + 1 * (0 + 1 * q.val) = (i 1).val; omega
  have hb : iblk2 V c 4 t (ix1 q) = (V c main_arg7 : S64.Idx → EReal) (ix1 (i 1)) := by
    show (V c main_arg7 : S64.Idx → EReal) (((cfg2.win 4).blk t).view.emb (ix1 q)) = _
    refine congrArg _ (funext fun a => Fin.ext ?_)
    match a with
    | ⟨0, _⟩ => show win2_4.index t (0 : Fin 1) * 64 + 1 * q.val = (i 1).val; omega
  unfold G layerPre rowDot blockPre slabDot
  refine (congrArg₂ (· + ·) (congrArg₂ (· + ·) (congrArg₂ (· + ·)
    (Finset.sum_congr rfl fun k _ => congrArg₂ (· * ·) (hx0 k) (hw0 k))
    (Finset.sum_congr rfl fun k _ => congrArg₂ (· * ·) (hx1 k) (hw1 k)))
    (Finset.sum_congr rfl fun k _ => congrArg₂ (· * ·) (hx2 k) (hw2 k))) hb)

/-- An index of the output array is in point `t`'s block iff each coordinate is in the block's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v119).slice (win2_5.rect t)).set ↔ _
  rw [View.set_slice_whole, Rect.mem_set_unit]
  exact Iff.rfl

/-- The ten blocks cover the output array: row `r` is in the block of point `r / 5000`. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- After region 2 its output array is the layer of the arrays the region found. -/
theorem arr (c : Dev nD) : (dat2 (F := Ideal) V c).arrAt 5 cfg2.N = G V c :=
  (dat2 (F := Ideal) V c).arrAt_eq_of_cover 5 (G V c) (fun t _ => flushed_eq V c t) (cover)

end Cert.KernelIdeal.Region2

end
-- ==== Proof.HostA.lean ====
/-
  The first stretch of host operations of the kernel program: from the edge list, the sources and destinations of the
  edges, the out-degree of every node (a scatter-add of ones by source), whether it is positive, and the reciprocal
  square root of the degree clamped below by one. Each buffer it writes holds the reference's stage of the same
  operations of the same edge list; the terms are compared as written.
-/
import proofs.«147090_j7327214207517_1_alg».proof.Proof.Gen.KernelIdeal.Launch
import proofs.«147090_j7327214207517_1_alg».proof.Proof.RefRead

set_option maxRecDepth 16384

noncomputable section

namespace Cert.KernelIdeal.HostA

open Idealize.ShloMosaic Idealize.ShloMosaic.TcCoe Idealize.ShloMosaic.StableHlo
open Cert.KernelIdeal Cert.KernelIdeal.Gen Cert.ReferenceIdeal.ReadP

abbrev Feat := (⟨Cert.ReferenceIdeal.S50000x64, .f32⟩ : BufTy).Contents (Elt Ideal)
abbrev Edges := (⟨Cert.ReferenceIdeal.S2x1000000, .i32⟩ : BufTy).Contents (Elt Ideal)

variable (W : Valuation τ sig (Elt Ideal))

/-- The edge sources. -/
theorem src :
    StableHlo.after hostOps0 W (Proc.devRef .tc main_v1) = val_main_v1 (F := Ideal) (W (Proc.devRef .tc main_arg1)) := by
  dsimp only [hostOps0]
  after_results_simp <;> rfl

/-- The edge destinations. -/
theorem dst :
    StableHlo.after hostOps0 W (Proc.devRef .tc main_v3) = val_main_v3 (F := Ideal) (W (Proc.devRef .tc main_arg1)) := by
  dsimp only [hostOps0]
  after_results_simp <;> rfl

/-- Which nodes have a positive out-degree. -/
theorem pos :
    StableHlo.after hostOps0 W (Proc.devRef .tc main_v9) = val_main_v9 (F := Ideal) (W (Proc.devRef .tc main_arg1)) := by
  dsimp only [hostOps0]
  after_results_simp <;> rfl

/-- The reciprocal square root of the out-degree clamped below by one. -/
theorem rsq :
    StableHlo.after hostOps0 W (Proc.devRef .tc main_v12) = val_main_v12 (F := Ideal) (W (Proc.devRef .tc main_arg1)) := by
  dsimp only [hostOps0]
  after_results_simp <;> rfl

/-- The zero the degree-free nodes get. -/
theorem zero :
    StableHlo.after hostOps0 W (Proc.devRef .tc main_cst_3) = val_main_cst_3 (F := Ideal) := by
  dsimp only [hostOps0]
  after_results_simp <;> rfl

set_option maxHeartbeats 4000000 in
/-- The stretch writes none of these buffers. -/
theorem keep :
    StableHlo.after hostOps0 W (Proc.devRef .tc main_arg0) = W (Proc.devRef .tc main_arg0)
    ∧ StableHlo.after hostOps0 W (Proc.devRef .tc main_arg2) = W (Proc.devRef .tc main_arg2)
    ∧ StableHlo.after hostOps0 W (Proc.devRef .tc main_arg3) = W (Proc.devRef .tc main_arg3)
    ∧ StableHlo.after hostOps0 W (Proc.devRef .tc main_arg4) = W (Proc.devRef .tc main_arg4)
    ∧ StableHlo.after hostOps0 W (Proc.devRef .tc main_arg5) = W (Proc.devRef .tc main_arg5)
    ∧ StableHlo.after hostOps0 W (Proc.devRef .tc main_arg6) = W (Proc.devRef .tc main_arg6)
    ∧ StableHlo.after hostOps0 W (Proc.devRef .tc main_arg7) = W (Proc.devRef .tc main_arg7) := by
  dsimp only [hostOps0]
  refine ⟨?_, ?_, ?_, ?_, ?_, ?_, ?_⟩ <;> (after_results_simp <;> rfl)

end Cert.KernelIdeal.HostA

end
-- ==== Proof.HostB.lean ====
/-
  The second stretch: the three operations of the outlined `where` that zero the normalisation of the nodes without an
  outgoing edge: `select(deg > 0, rsqrt(max(deg, 1)), 0)`. An outlined function's operation reads and writes its
  buffers through typed references; at the literal buffers of this call each transport is the identity, so the call's
  result is the plain selection of its operands.
-/
import proofs.«147090_j7327214207517_1_alg».proof.Proof.Gen.KernelIdeal.Launch
import proofs.«147090_j7327214207517_1_alg».proof.Proof.RefRead

set_option maxRecDepth 16384

noncomputable section

namespace Cert.KernelIdeal.HostB

open Idealize.ShloMosaic Idealize.ShloMosaic.TcCoe Idealize.ShloMosaic.StableHlo
open Cert.KernelIdeal Cert.KernelIdeal.Gen Cert.ReferenceIdeal.ReadP

abbrev Feat := (⟨Cert.ReferenceIdeal.S50000x64, .f32⟩ : BufTy).Contents (Elt Ideal)
abbrev Edges := (⟨Cert.ReferenceIdeal.S2x1000000, .i32⟩ : BufTy).Contents (Elt Ideal)

variable (W : Valuation τ sig (Elt Ideal))

/-! Each transport of this call, at its literal buffer, is the identity. -/

theorem out_w (v : (⟨S50000, .f32⟩ : BufTy).Contents (Elt Ideal)) : (TRef.of (T := ⟨S50000, .f32⟩) main_v13).toBuf v = v := rfl
theorem in_c (v : (⟨S50000, .i1⟩ : BufTy).Contents (Elt Ideal)) : (TRef.of (T := ⟨S50000, .i1⟩) main_v9).ofBuf v = v := rfl
theorem in_a (v : (⟨S50000, .f32⟩ : BufTy).Contents (Elt Ideal)) : (TRef.of (T := ⟨S50000, .f32⟩) main_v12).ofBuf v = v := rfl
theorem in_b1 (v : (⟨S50000, .f32⟩ : BufTy).Contents (Elt Ideal)) : (TRef.of (T := ⟨S50000, .f32⟩) main_call0_v1).ofBuf v = v := rfl
theorem out_b1 (v : (⟨S50000, .f32⟩ : BufTy).Contents (Elt Ideal)) : (TRef.of (T := ⟨S50000, .f32⟩) main_call0_v1).toBuf v = v := rfl
theorem in_b0 (v : (⟨S_, .f32⟩ : BufTy).Contents (Elt Ideal)) : (TRef.of (T := ⟨S_, .f32⟩) main_call0_v0).ofBuf v = v := rfl
theorem out_b0 (v : (⟨S_, .f32⟩ : BufTy).Contents (Elt Ideal)) : (TRef.of (T := ⟨S_, .f32⟩) main_call0_v0).toBuf v = v := rfl
theorem in_z (v : (⟨S_, .f32⟩ : BufTy).Contents (Elt Ideal)) : (TRef.of (T := ⟨S_, .f32⟩) main_cst_3).ofBuf v = v := rfl

/-- The call's result: the selection of its operands as the stretch finds them. -/
theorem selected :
    StableHlo.after hostOps0_1 W (Proc.devRef .tc main_v13)
      = select (W (Proc.devRef .tc main_v9)) (W (Proc.devRef .tc main_v12))
          (broadcastInDim S50000 ![] bcast_S_S50000 (id (W (Proc.devRef .tc main_cst_3)))) := by
  dsimp only [hostOps0_1]
  after_results_simp
  refine (out_w _).trans ?_
  refine congr (congr (congrArg select (in_c _)) (in_a _)) ?_
  refine (in_b1 _).trans ((out_b1 _).trans ?_)
  refine congrArg _ ?_
  refine (in_b0 _).trans ((out_b0 _).trans ?_)
  exact congrArg id (in_z _)

/-- With the operands at the reference's stages of an edge list, the result is the reference's stage. -/
theorem masked (E : Edges) (hc : W (Proc.devRef .tc main_v9) = val_main_v9 (F := Ideal) E)
    (ha : W (Proc.devRef .tc main_v12) = val_main_v12 (F := Ideal) E)
    (hz : W (Proc.devRef .tc main_cst_3) = val_main_cst_3 (F := Ideal)) :
    StableHlo.after hostOps0_1 W (Proc.devRef .tc main_v13) = val_main_v13 (F := Ideal) E := by
  rw [selected, hc, ha, hz]
  rfl

set_option maxHeartbeats 4000000 in
/-- The stretch writes none of these buffers. -/
theorem keep :
    StableHlo.after hostOps0_1 W (Proc.devRef .tc main_v1) = W (Proc.devRef .tc main_v1)
    ∧ StableHlo.after hostOps0_1 W (Proc.devRef .tc main_v3) = W (Proc.devRef .tc main_v3)
    ∧ StableHlo.after hostOps0_1 W (Proc.devRef .tc main_arg0) = W (Proc.devRef .tc main_arg0)
    ∧ StableHlo.after hostOps0_1 W (Proc.devRef .tc main_arg2) = W (Proc.devRef .tc main_arg2)
    ∧ StableHlo.after hostOps0_1 W (Proc.devRef .tc main_arg3) = W (Proc.devRef .tc main_arg3)
    ∧ StableHlo.after hostOps0_1 W (Proc.devRef .tc main_arg4) = W (Proc.devRef .tc main_arg4)
    ∧ StableHlo.after hostOps0_1 W (Proc.devRef .tc main_arg5) = W (Proc.devRef .tc main_arg5)
    ∧ StableHlo.after hostOps0_1 W (Proc.devRef .tc main_arg6) = W (Proc.devRef .tc main_arg6)
    ∧ StableHlo.after hostOps0_1 W (Proc.devRef .tc main_arg7) = W (Proc.devRef .tc main_arg7) := by
  dsimp only [hostOps0_1]
  refine ⟨?_, ?_, ?_, ?_, ?_, ?_, ?_, ?_, ?_⟩ <;> (after_results_simp <;> rfl)

end Cert.KernelIdeal.HostB

end
-- ==== Proof.HostC.lean ====
/-
  The third stretch, up to the first region: from the masked reciprocal square roots `dis`, the sources and the
  destinations it forms the edge normalisation `-(dis[src] · dis[dst])`, and from the input features `x` the two
  Chebyshev transforms `T₁ = L̂ x` (gather the rows by source, scale each by its edge's normalisation, scatter-add by
  destination) and `T₂ = 2 L̂ T₁ - x`. With its inputs at the reference's stages of an edge list `E`, each buffer it
  writes holds the reference's stage of `E` and `x`.
-/
import proofs.«147090_j7327214207517_1_alg».proof.Proof.Gen.KernelIdeal.Launch
import proofs.«147090_j7327214207517_1_alg».proof.Proof.RefRead

set_option maxRecDepth 16384

noncomputable section

namespace Cert.KernelIdeal.HostC

open Idealize.ShloMosaic Idealize.ShloMosaic.TcCoe Idealize.ShloMosaic.StableHlo
open Cert.KernelIdeal Cert.KernelIdeal.Gen Cert.ReferenceIdeal.ReadP

abbrev Feat := (⟨Cert.ReferenceIdeal.S50000x64, .f32⟩ : BufTy).Contents (Elt Ideal)
abbrev Edges := (⟨Cert.ReferenceIdeal.S2x1000000, .i32⟩ : BufTy).Contents (Elt Ideal)

variable (W : Valuation τ sig (Elt Ideal))

set_option maxHeartbeats 2000000 in
/-- The edge normalisation. -/
theorem norm (E : Edges) (hw : W (Proc.devRef .tc main_v13) = val_main_v13 (F := Ideal) E)
    (hs : W (Proc.devRef .tc main_v1) = val_main_v1 (F := Ideal) E) (hd : W (Proc.devRef .tc main_v3) = val_main_v3 (F := Ideal) E) :
    StableHlo.after hostOps0_2 W (Proc.devRef .tc main_v29) = val_main_v29 (F := Ideal) E := by
  dsimp only [hostOps0_2]
  after_results_simp
  rw [hw, hs, hd]
  rfl

set_option maxHeartbeats 2000000 in
/-- `T₁ = L̂ x`. -/
theorem cheb1 (E : Edges) (hw : W (Proc.devRef .tc main_v13) = val_main_v13 (F := Ideal) E)
    (hs : W (Proc.devRef .tc main_v1) = val_main_v1 (F := Ideal) E) (hd : W (Proc.devRef .tc main_v3) = val_main_v3 (F := Ideal) E)
    (x : Feat) (hx : W (Proc.devRef .tc main_arg0) = x) :
    StableHlo.after hostOps0_2 W (Proc.devRef .tc main_v42) = val_main_v45 (F := Ideal) x E := by
  dsimp only [hostOps0_2]
  after_results_simp
  rw [hw, hs, hd, hx]
  rfl

set_option maxHeartbeats 2000000 in
/-- `T₂ = 2 L̂ T₁ - x`. -/
theorem cheb2 (E : Edges) (hw : W (Proc.devRef .tc main_v13) = val_main_v13 (F := Ideal) E)
    (hs : W (Proc.devRef .tc main_v1) = val_main_v1 (F := Ideal) E) (hd : W (Proc.devRef .tc main_v3) = val_main_v3 (F := Ideal) E)
    (x : Feat) (hx : W (Proc.devRef .tc main_arg0) = x) :
    StableHlo.after hostOps0_2 W (Proc.devRef .tc main_v58) = val_main_v65 (F := Ideal) x E := by
  dsimp only [hostOps0_2]
  after_results_simp
  rw [hw, hs, hd, hx]
  rfl

set_option maxHeartbeats 4000000 in
/-- The stretch writes none of these buffers. -/
theorem keep :
    StableHlo.after hostOps0_2 W (Proc.devRef .tc main_v1) = W (Proc.devRef .tc main_v1)
    ∧ StableHlo.after hostOps0_2 W (Proc.devRef .tc main_v3) = W (Proc.devRef .tc main_v3)
    ∧ StableHlo.after hostOps0_2 W (Proc.devRef .tc main_arg0) = W (Proc.devRef .tc main_arg0)
    ∧ StableHlo.after hostOps0_2 W (Proc.devRef .tc main_arg2) = W (Proc.devRef .tc main_arg2)
    ∧ StableHlo.after hostOps0_2 W (Proc.devRef .tc main_arg3) = W (Proc.devRef .tc main_arg3)
    ∧ StableHlo.after hostOps0_2 W (Proc.devRef .tc main_arg4) = W (Proc.devRef .tc main_arg4)
    ∧ StableHlo.after hostOps0_2 W (Proc.devRef .tc main_arg5) = W (Proc.devRef .tc main_arg5)
    ∧ StableHlo.after hostOps0_2 W (Proc.devRef .tc main_arg6) = W (Proc.devRef .tc main_arg6)
    ∧ StableHlo.after hostOps0_2 W (Proc.devRef .tc main_arg7) = W (Proc.devRef .tc main_arg7) := by
  dsimp only [hostOps0_2]
  refine ⟨?_, ?_, ?_, ?_, ?_, ?_, ?_, ?_, ?_⟩ <;> (after_results_simp <;> rfl)

end Cert.KernelIdeal.HostC

end
-- ==== Proof.Host1.lean ====
/-
  The stretch between the first and the second region: from the first layer's output `H` (the first region's result
  buffer), the edge normalisation, the sources and the destinations, the two Chebyshev transforms `T₁ = L̂ H` and
  `T₂ = 2 L̂ T₁ - H` — the same gather, scale and scatter-add as before the first region. With the normalisation, sources
  and destinations at the reference's stages of an edge list `E`, the two buffers hold the reference's stages of `E` and `H`.
-/
import proofs.«147090_j7327214207517_1_alg».proof.Proof.Gen.KernelIdeal.Launch
import proofs.«147090_j7327214207517_1_alg».proof.Proof.RefRead

set_option maxRecDepth 16384

noncomputable section

namespace Cert.KernelIdeal.Host1

open Idealize.ShloMosaic Idealize.ShloMosaic.TcCoe Idealize.ShloMosaic.StableHlo
open Cert.KernelIdeal Cert.KernelIdeal.Gen Cert.ReferenceIdeal.ReadP

abbrev Feat := (⟨Cert.ReferenceIdeal.S50000x64, .f32⟩ : BufTy).Contents (Elt Ideal)
abbrev Edges := (⟨Cert.ReferenceIdeal.S2x1000000, .i32⟩ : BufTy).Contents (Elt Ideal)

variable (W : Valuation τ sig (Elt Ideal))

set_option maxHeartbeats 2000000 in
/-- `T₁ = L̂ H`. -/
theorem cheb1 (E : Edges) (hn : W (Proc.devRef .tc main_v29) = val_main_v29 (F := Ideal) E)
    (hs : W (Proc.devRef .tc main_v1) = val_main_v1 (F := Ideal) E) (hd : W (Proc.devRef .tc main_v3) = val_main_v3 (F := Ideal) E)
    (H : Feat) (hH : W (Proc.devRef .tc main_v59) = H) :
    StableHlo.after hostOps1 W (Proc.devRef .tc main_v72) = val_main_v45 (F := Ideal) H E := by
  dsimp only [hostOps1]
  after_results_simp
  rw [hn, hs, hd, hH]
  rfl

set_option maxHeartbeats 2000000 in
/-- `T₂ = 2 L̂ T₁ - H`. -/
theorem cheb2 (E : Edges) (hn : W (Proc.devRef .tc main_v29) = val_main_v29 (F := Ideal) E)
    (hs : W (Proc.devRef .tc main_v1) = val_main_v1 (F := Ideal) E) (hd : W (Proc.devRef .tc main_v3) = val_main_v3 (F := Ideal) E)
    (H : Feat) (hH : W (Proc.devRef .tc main_v59) = H) :
    StableHlo.after hostOps1 W (Proc.devRef .tc main_v88) = val_main_v65 (F := Ideal) H E := by
  dsimp only [hostOps1]
  after_results_simp
  rw [hn, hs, hd, hH]
  rfl

set_option maxHeartbeats 4000000 in
/-- The stretch writes none of these buffers. -/
theorem keep :
    StableHlo.after hostOps1 W (Proc.devRef .tc main_v1) = W (Proc.devRef .tc main_v1)
    ∧ StableHlo.after hostOps1 W (Proc.devRef .tc main_v3) = W (Proc.devRef .tc main_v3)
    ∧ StableHlo.after hostOps1 W (Proc.devRef .tc main_v29) = W (Proc.devRef .tc main_v29)
    ∧ StableHlo.after hostOps1 W (Proc.devRef .tc main_v59) = W (Proc.devRef .tc main_v59)
    ∧ StableHlo.after hostOps1 W (Proc.devRef .tc main_arg4) = W (Proc.devRef .tc main_arg4)
    ∧ StableHlo.after hostOps1 W (Proc.devRef .tc main_arg5) = W (Proc.devRef .tc main_arg5)
    ∧ StableHlo.after hostOps1 W (Proc.devRef .tc main_arg6) = W (Proc.devRef .tc main_arg6)
    ∧ StableHlo.after hostOps1 W (Proc.devRef .tc main_arg7) = W (Proc.devRef .tc main_arg7) := by
  dsimp only [hostOps1]
  refine ⟨?_, ?_, ?_, ?_, ?_, ?_, ?_, ?_⟩ <;> (after_results_simp <;> rfl)

end Cert.KernelIdeal.Host1

end
-- ==== Proof.Host2.lean ====
/-
  The stretch between the second and the third region: from the second layer's output `H` (the second region's result
  buffer), the edge normalisation, the sources and the destinations, the two Chebyshev transforms `T₁ = L̂ H` and
  `T₂ = 2 L̂ T₁ - H`, as before. With the normalisation, sources and destinations at the reference's stages of an edge
  list `E`, the two buffers hold the reference's stages of `E` and `H`.
-/
import proofs.«147090_j7327214207517_1_alg».proof.Proof.Gen.KernelIdeal.Launch
import proofs.«147090_j7327214207517_1_alg».proof.Proof.RefRead

set_option maxRecDepth 16384

noncomputable section

namespace Cert.KernelIdeal.Host2

open Idealize.ShloMosaic Idealize.ShloMosaic.TcCoe Idealize.ShloMosaic.StableHlo
open Cert.KernelIdeal Cert.KernelIdeal.Gen Cert.ReferenceIdeal.ReadP

abbrev Feat := (⟨Cert.ReferenceIdeal.S50000x64, .f32⟩ : BufTy).Contents (Elt Ideal)
abbrev Edges := (⟨Cert.ReferenceIdeal.S2x1000000, .i32⟩ : BufTy).Contents (Elt Ideal)

variable (W : Valuation τ sig (Elt Ideal))

set_option maxHeartbeats 2000000 in
/-- `T₁ = L̂ H`. -/
theorem cheb1 (E : Edges) (hn : W (Proc.devRef .tc main_v29) = val_main_v29 (F := Ideal) E)
    (hs : W (Proc.devRef .tc main_v1) = val_main_v1 (F := Ideal) E) (hd : W (Proc.devRef .tc main_v3) = val_main_v3 (F := Ideal) E)
    (H : Feat) (hH : W (Proc.devRef .tc main_v89) = H) :
    StableHlo.after hostOps2 W (Proc.devRef .tc main_v102) = val_main_v45 (F := Ideal) H E := by
  dsimp only [hostOps2]
  after_results_simp
  rw [hn, hs, hd, hH]
  rfl

set_option maxHeartbeats 2000000 in
/-- `T₂ = 2 L̂ T₁ - H`. -/
theorem cheb2 (E : Edges) (hn : W (Proc.devRef .tc main_v29) = val_main_v29 (F := Ideal) E)
    (hs : W (Proc.devRef .tc main_v1) = val_main_v1 (F := Ideal) E) (hd : W (Proc.devRef .tc main_v3) = val_main_v3 (F := Ideal) E)
    (H : Feat) (hH : W (Proc.devRef .tc main_v89) = H) :
    StableHlo.after hostOps2 W (Proc.devRef .tc main_v118) = val_main_v65 (F := Ideal) H E := by
  dsimp only [hostOps2]
  after_results_simp
  rw [hn, hs, hd, hH]
  rfl

set_option maxHeartbeats 4000000 in
/-- The stretch writes none of these buffers. -/
theorem keep :
    StableHlo.after hostOps2 W (Proc.devRef .tc main_v89) = W (Proc.devRef .tc main_v89)
    ∧ StableHlo.after hostOps2 W (Proc.devRef .tc main_arg6) = W (Proc.devRef .tc main_arg6)
    ∧ StableHlo.after hostOps2 W (Proc.devRef .tc main_arg7) = W (Proc.devRef .tc main_arg7) := by
  dsimp only [hostOps2]
  refine ⟨?_, ?_, ?_⟩ <;> (after_results_simp <;> rfl)

end Cert.KernelIdeal.Host2

end
-- ==== Proof.LayerBridge.lean ====
/-
  The kernel's layer and the reference's layer are one function.

  The reference forms a layer from node features `H`, the edge list `E`, weights `W` and a bias `b`: with `T₁ = L̂ H` and
  `T₂ = 2 L̂ T₁ - H` (the graph propagation, the same host operations in both programs) it computes
  `((H W₀ + T₁ W₁) + T₂ W₂) + b`, each product a contraction over the 64 feature columns, `Wₛ` slab `s` of `W` sliced and
  reshaped to 64×64, the bias broadcast over the rows, and rectifies by `max(·, 0)` in a hidden layer. The kernel's
  layer on whole arrays (`layerPre`, `layerRelu`) is the same sum of three contractions plus the bias, entry by entry,
  grouped the same way: no law of arithmetic is needed, only that both sides read the same entries.
-/
import proofs.«147090_j7327214207517_1_alg».proof.Proof.Payload
import proofs.«147090_j7327214207517_1_alg».proof.Proof.RefRead

noncomputable section

namespace Cert.Bridge

open Idealize.ShloMosaic Idealize.ShloMosaic.ValueIdx Cert.Combine Cert.ReferenceIdeal.ReadP

abbrev Feat := (⟨Cert.ReferenceIdeal.S50000x64, .f32⟩ : BufTy).Contents (Elt Ideal)
abbrev Edges := (⟨Cert.ReferenceIdeal.S2x1000000, .i32⟩ : BufTy).Contents (Elt Ideal)
abbrev Weights := (⟨Cert.ReferenceIdeal.S3x64x64, .f32⟩ : BufTy).Contents (Elt Ideal)
abbrev Bias := (⟨Cert.ReferenceIdeal.S64, .f32⟩ : BufTy).Contents (Elt Ideal)

/-- The left operand's index of a reference product at `i`, contraction coordinate `k`: row of `i`, column `k`. -/
theorem lidx_eq (i : Cert.ReferenceIdeal.S50000x64.Idx) (k : Fin 64) : lidx_main_v32 i k = ix2 (i 0) k :=
  funext fun a => Fin.ext (by
    match a with
    | ⟨0, _⟩ => rfl
    | ⟨1, _⟩ => rfl)

/-- Slab 0 of the weights, sliced and reshaped to 64×64, at `(k, column of i)`. -/
theorem slab0_at (W : Weights) (i : Cert.ReferenceIdeal.S50000x64.Idx) (k : Fin 64) :
    val_main_v31 (F := Ideal) W (ridx_main_v32 i k) = W (ix3 (0 : Fin 3) k (i 1)) := by
  rw [val_main_v31_apply, val_main_v30_apply]
  refine congrArg W (funext fun a => Fin.ext ?_)
  have hk : k.val < 64 := k.isLt
  have hq : (i 1).val < 64 := (i 1).isLt
  match a with
  | ⟨0, _⟩ => rfl
  | ⟨1, _⟩ => show (k.val * 64 + (i 1).val) / 64 % 64 = k.val; omega
  | ⟨2, _⟩ => show (k.val * 64 + (i 1).val) % 64 = (i 1).val; omega

/-- Slab 1 of the weights at `(k, column of i)`. -/
theorem slab1_at (W : Weights) (i : Cert.ReferenceIdeal.S50000x64.Idx) (k : Fin 64) :
    val_main_v47 (F := Ideal) W (ridx_main_v48 i k) = W (ix3 (1 : Fin 3) k (i 1)) := by
  rw [val_main_v47_apply, val_main_v46_apply]
  refine congrArg W (funext fun a => Fin.ext ?_)
  have hk : k.val < 64 := k.isLt
  have hq : (i 1).val < 64 := (i 1).isLt
  match a with
  | ⟨0, _⟩ => rfl
  | ⟨1, _⟩ => show (k.val * 64 + (i 1).val) / 64 % 64 = k.val; omega
  | ⟨2, _⟩ => show (k.val * 64 + (i 1).val) % 64 = (i 1).val; omega

/-- Slab 2 of the weights at `(k, column of i)`. -/
theorem slab2_at (W : Weights) (i : Cert.ReferenceIdeal.S50000x64.Idx) (k : Fin 64) :
    val_main_v67 (F := Ideal) W (ridx_main_v68 i k) = W (ix3 (2 : Fin 3) k (i 1)) := by
  rw [val_main_v67_apply, val_main_v66_apply]
  refine congrArg W (funext fun a => Fin.ext ?_)
  have hk : k.val < 64 := k.isLt
  have hq : (i 1).val < 64 := (i 1).isLt
  match a with
  | ⟨0, _⟩ => rfl
  | ⟨1, _⟩ => show (k.val * 64 + (i 1).val) / 64 % 64 = k.val; omega
  | ⟨2, _⟩ => show (k.val * 64 + (i 1).val) % 64 = (i 1).val; omega

/-- The bias broadcast over the rows at `i`: its entry at the column of `i`. -/
theorem bias_at (b : Bias) (i : Cert.ReferenceIdeal.S50000x64.Idx) : val_main_v71 (F := Ideal) b i = b (ix1 (i 1)) := by
  rw [val_main_v71_apply, val_main_v70_apply]
  refine congrArg b (funext fun a => Fin.ext ?_)
  match a with
  | ⟨0, _⟩ => rfl

/-- The layer before the rectifier: the kernel's whole-array function of `(H, L̂H, 2L̂L̂H - H, W, b)` is the reference's. -/
theorem pre_eq (H : Feat) (E : Edges) (W : Weights) (b : Bias) :
    layerPre H (val_main_v45 (F := Ideal) H E) (val_main_v65 (F := Ideal) H E) W b = val_main_v72 (F := Ideal) H E W b := by
  funext i
  rw [val_main_v72_apply, val_main_v69_apply, val_main_v49_apply, val_main_v32_apply, val_main_v48_apply,
    val_main_v68_apply, bias_at]
  unfold layerPre rowDot
  show ((_ + _) + _) + _ = ((_ + _) + _) + _
  refine congrArg₂ (· + ·) (congrArg₂ (· + ·) (congrArg₂ (· + ·)
    (Finset.sum_congr rfl fun k _ => ?_) (Finset.sum_congr rfl fun k _ => ?_)) (Finset.sum_congr rfl fun k _ => ?_)) rfl
  · rw [slab0_at]; exact congrArg₂ (· * ·) (congrArg _ (lidx_eq i k).symm) rfl
  · rw [slab1_at]; exact congrArg₂ (· * ·) (congrArg _ (lidx_eq i k).symm) rfl
  · rw [slab2_at]; exact congrArg₂ (· * ·) (congrArg _ (lidx_eq i k).symm) rfl

/-- A hidden layer: the kernel's rectified whole-array function is the reference's. -/
theorem relu_eq (H : Feat) (E : Edges) (W : Weights) (b : Bias) :
    layerRelu H (val_main_v45 (F := Ideal) H E) (val_main_v65 (F := Ideal) H E) W b = val_main_v73 (F := Ideal) H E W b := by
  funext i
  rw [val_main_v73_apply, ← pre_eq, val_main_call1_v0_apply, val_main_call1_cst_apply]
  rfl

end Cert.Bridge

end
-- ==== Proof.KernelNet.lean ====
/-
  The kernel program's result, layer by layer.

  The contents of the kernel program's buffers at each boundary between its host stretches and its regions are a fold
  from the launch memory. Read back: before the first region the buffers hold the sources, destinations and
  normalisation of the edge list, the input features `x` and their Chebyshev transforms `L̂x`, `2L̂L̂x - x`; the first
  region leaves `H₁ = max(((x W₀ + L̂x W₁) + (2L̂L̂x - x) W₂) + b, 0)` with the first layer's weights; the next stretch
  forms the transforms of `H₁`, the second region leaves `H₂` the same way with the second layer's weights; the last
  stretch forms the transforms of `H₂` and the third region leaves the output layer of `H₂`, not rectified. Each layer
  is the reference's layer (the bridge between the block products and the reference's contractions), so the result
  is the reference's three layers applied to the arguments.
-/
import proofs.«147090_j7327214207517_1_alg».proof.Proof.Gen.KernelIdeal.Frame
import proofs.«147090_j7327214207517_1_alg».proof.Proof.Region0
import proofs.«147090_j7327214207517_1_alg».proof.Proof.Region1
import proofs.«147090_j7327214207517_1_alg».proof.Proof.Region2
import proofs.«147090_j7327214207517_1_alg».proof.Proof.HostA
import proofs.«147090_j7327214207517_1_alg».proof.Proof.HostB
import proofs.«147090_j7327214207517_1_alg».proof.Proof.HostC
import proofs.«147090_j7327214207517_1_alg».proof.Proof.Host1
import proofs.«147090_j7327214207517_1_alg».proof.Proof.Host2
import proofs.«147090_j7327214207517_1_alg».proof.Proof.LayerBridge

set_option maxRecDepth 16384

noncomputable section

namespace Cert.KernelIdeal.Net

open Idealize.ShloMosaic Idealize.ShloMosaic.TcCoe Idealize.ShloMosaic.StableHlo
open Cert.KernelIdeal Cert.KernelIdeal.Gen Cert.ReferenceIdeal.ReadP Cert.Bridge Cert.Combine

variable (m : (ℓ : Loc nD τ sig) → Buf (Elt Ideal) ℓ) (ρ : Dev nD → PrngReg)

/-- The arguments as launched: features, edge list, and each layer's weights and bias. -/
abbrev x (c : Dev nD) : Feat := m ((c : Thread nD τ).loc main_arg0)
abbrev E (c : Dev nD) : Edges := m ((c : Thread nD τ).loc main_arg1)
abbrev Wa (c : Dev nD) : Weights := m ((c : Thread nD τ).loc main_arg2)
abbrev ba (c : Dev nD) : Bias := m ((c : Thread nD τ).loc main_arg3)
abbrev Wb (c : Dev nD) : Weights := m ((c : Thread nD τ).loc main_arg4)
abbrev bb (c : Dev nD) : Bias := m ((c : Thread nD τ).loc main_arg5)
abbrev Wc (c : Dev nD) : Weights := m ((c : Thread nD τ).loc main_arg6)
abbrev bc (c : Dev nD) : Bias := m ((c : Thread nD τ).loc main_arg7)

/-- The first and the second layer's outputs. -/
abbrev H1 (c : Dev nD) : Feat := val_main_v73 (F := Ideal) (x m c) (E m c) (Wa m c) (ba m c)
abbrev H2 (c : Dev nD) : Feat := val_main_v73 (F := Ideal) (H1 m c) (E m c) (Wb m c) (bb m c)

/-! ## Before the first region -/

/-- What the stretches before the first region leave (contents `W3`). -/
theorem entry0 (c : Dev nD) :
    W3 m ρ c (Proc.devRef .tc main_v1) = val_main_v1 (F := Ideal) (E m c)
    ∧ W3 m ρ c (Proc.devRef .tc main_v3) = val_main_v3 (F := Ideal) (E m c)
    ∧ W3 m ρ c (Proc.devRef .tc main_v29) = val_main_v29 (F := Ideal) (E m c)
    ∧ W3 m ρ c (Proc.devRef .tc main_v42) = val_main_v45 (F := Ideal) (x m c) (E m c)
    ∧ W3 m ρ c (Proc.devRef .tc main_v58) = val_main_v65 (F := Ideal) (x m c) (E m c)
    ∧ W3 m ρ c (Proc.devRef .tc main_arg0) = x m c
    ∧ W3 m ρ c (Proc.devRef .tc main_arg2) = Wa m c
    ∧ W3 m ρ c (Proc.devRef .tc main_arg3) = ba m c
    ∧ W3 m ρ c (Proc.devRef .tc main_arg4) = Wb m c
    ∧ W3 m ρ c (Proc.devRef .tc main_arg5) = bb m c
    ∧ W3 m ρ c (Proc.devRef .tc main_arg6) = Wc m c
    ∧ W3 m ρ c (Proc.devRef .tc main_arg7) = bc m c := by
  obtain ⟨a0, a2, a3, a4, a5, a6, a7⟩ := HostA.keep (W0 m ρ c)
  obtain ⟨b1, b3, b0, b2, b3', b4, b5, b6, b7⟩ := HostB.keep (W1 m ρ c)
  obtain ⟨c1, c3, c0, c2, c3', c4, c5, c6, c7⟩ := HostC.keep (W2 m ρ c)
  have hs : W2 m ρ c (Proc.devRef .tc main_v1) = val_main_v1 (F := Ideal) (E m c) := b1.trans (HostA.src (W0 m ρ c))
  have hd : W2 m ρ c (Proc.devRef .tc main_v3) = val_main_v3 (F := Ideal) (E m c) := b3.trans (HostA.dst (W0 m ρ c))
  have hw : W2 m ρ c (Proc.devRef .tc main_v13) = val_main_v13 (F := Ideal) (E m c) :=
    HostB.masked (W1 m ρ c) (E m c) (HostA.pos (W0 m ρ c)) (HostA.rsq (W0 m ρ c)) (HostA.zero (W0 m ρ c))
  have hx : W2 m ρ c (Proc.devRef .tc main_arg0) = x m c := b0.trans a0
  exact ⟨c1.trans hs, c3.trans hd, HostC.norm (W2 m ρ c) (E m c) hw hs hd,
    HostC.cheb1 (W2 m ρ c) (E m c) hw hs hd (x m c) hx, HostC.cheb2 (W2 m ρ c) (E m c) hw hs hd (x m c) hx,
    c0.trans hx, c2.trans (b2.trans a2), c3'.trans (b3'.trans a3), c4.trans (b4.trans a4), c5.trans (b5.trans a5),
    c6.trans (b6.trans a6), c7.trans (b7.trans a7)⟩

/-! ## The first region and the stretch after it -/

/-- The first region leaves the first layer's output in its result buffer. -/
theorem out0 (c : Dev nD) : W4 m ρ c (Proc.devRef .tc main_v59) = H1 m c := by
  obtain ⟨-, -, -, t1, t2, a0, a2, a3, -, -, -, -⟩ := entry0 m ρ c
  refine ((W4_arr m ρ c 5).trans (Region0.arr (V3 m ρ) c)).trans ?_
  show layerRelu (W3 m ρ c (Proc.devRef .tc main_arg0)) (W3 m ρ c (Proc.devRef .tc main_v42)) (W3 m ρ c (Proc.devRef .tc main_v58))
    (W3 m ρ c (Proc.devRef .tc main_arg2)) (W3 m ρ c (Proc.devRef .tc main_arg3)) = _
  rw [a0, t1, t2, a2, a3]
  exact relu_eq _ _ _ _

/-- What the stretch after the first region leaves (contents `W5`). -/
theorem entry1 (c : Dev nD) :
    W5 m ρ c (Proc.devRef .tc main_v1) = val_main_v1 (F := Ideal) (E m c)
    ∧ W5 m ρ c (Proc.devRef .tc main_v3) = val_main_v3 (F := Ideal) (E m c)
    ∧ W5 m ρ c (Proc.devRef .tc main_v29) = val_main_v29 (F := Ideal) (E m c)
    ∧ W5 m ρ c (Proc.devRef .tc main_v72) = val_main_v45 (F := Ideal) (H1 m c) (E m c)
    ∧ W5 m ρ c (Proc.devRef .tc main_v88) = val_main_v65 (F := Ideal) (H1 m c) (E m c)
    ∧ W5 m ρ c (Proc.devRef .tc main_v59) = H1 m c
    ∧ W5 m ρ c (Proc.devRef .tc main_arg4) = Wb m c
    ∧ W5 m ρ c (Proc.devRef .tc main_arg5) = bb m c
    ∧ W5 m ρ c (Proc.devRef .tc main_arg6) = Wc m c
    ∧ W5 m ρ c (Proc.devRef .tc main_arg7) = bc m c := by
  obtain ⟨s3, d3, n3, -, -, -, -, -, a4, a5, a6, a7⟩ := entry0 m ρ c
  obtain ⟨k1, k3, k29, k59, k4, k5, k6, k7⟩ := Host1.keep (W4 m ρ c)
  have hs : W4 m ρ c (Proc.devRef .tc main_v1) = val_main_v1 (F := Ideal) (E m c) := (W4_of_ne m ρ c main_v1 (by decide)).trans s3
  have hd : W4 m ρ c (Proc.devRef .tc main_v3) = val_main_v3 (F := Ideal) (E m c) := (W4_of_ne m ρ c main_v3 (by decide)).trans d3
  have hn : W4 m ρ c (Proc.devRef .tc main_v29) = val_main_v29 (F := Ideal) (E m c) := (W4_of_ne m ρ c main_v29 (by decide)).trans n3
  exact ⟨k1.trans hs, k3.trans hd, k29.trans hn,
    Host1.cheb1 (W4 m ρ c) (E m c) hn hs hd (H1 m c) (out0 m ρ c), Host1.cheb2 (W4 m ρ c) (E m c) hn hs hd (H1 m c) (out0 m ρ c),
    k59.trans (out0 m ρ c),
    k4.trans ((W4_of_ne m ρ c main_arg4 (by decide)).trans a4), k5.trans ((W4_of_ne m ρ c main_arg5 (by decide)).trans a5),
    k6.trans ((W4_of_ne m ρ c main_arg6 (by decide)).trans a6), k7.trans ((W4_of_ne m ρ c main_arg7 (by decide)).trans a7)⟩

/-! ## The second region and the stretch after it -/

/-- The second region leaves the second layer's output in its result buffer. -/
theorem out1 (c : Dev nD) : W6 m ρ c (Proc.devRef .tc main_v89) = H2 m c := by
  obtain ⟨-, -, -, t1, t2, h, a4, a5, -, -⟩ := entry1 m ρ c
  refine ((W6_arr m ρ c 5).trans (Region1.arr (V5 m ρ) c)).trans ?_
  show layerRelu (W5 m ρ c (Proc.devRef .tc main_v59)) (W5 m ρ c (Proc.devRef .tc main_v72)) (W5 m ρ c (Proc.devRef .tc main_v88))
    (W5 m ρ c (Proc.devRef .tc main_arg4)) (W5 m ρ c (Proc.devRef .tc main_arg5)) = _
  rw [h, t1, t2, a4, a5]
  exact relu_eq _ _ _ _

/-- What the stretch after the second region leaves (contents `W7`). -/
theorem entry2 (c : Dev nD) :
    W7 m ρ c (Proc.devRef .tc main_v102) = val_main_v45 (F := Ideal) (H2 m c) (E m c)
    ∧ W7 m ρ c (Proc.devRef .tc main_v118) = val_main_v65 (F := Ideal) (H2 m c) (E m c)
    ∧ W7 m ρ c (Proc.devRef .tc main_v89) = H2 m c
    ∧ W7 m ρ c (Proc.devRef .tc main_arg6) = Wc m c
    ∧ W7 m ρ c (Proc.devRef .tc main_arg7) = bc m c := by
  obtain ⟨s5, d5, n5, -, -, -, -, -, a6, a7⟩ := entry1 m ρ c
  obtain ⟨k89, k6, k7⟩ := Host2.keep (W6 m ρ c)
  have hs : W6 m ρ c (Proc.devRef .tc main_v1) = val_main_v1 (F := Ideal) (E m c) := (W6_of_ne m ρ c main_v1 (by decide)).trans s5
  have hd : W6 m ρ c (Proc.devRef .tc main_v3) = val_main_v3 (F := Ideal) (E m c) := (W6_of_ne m ρ c main_v3 (by decide)).trans d5
  have hn : W6 m ρ c (Proc.devRef .tc main_v29) = val_main_v29 (F := Ideal) (E m c) := (W6_of_ne m ρ c main_v29 (by decide)).trans n5
  exact ⟨Host2.cheb1 (W6 m ρ c) (E m c) hn hs hd (H2 m c) (out1 m ρ c), Host2.cheb2 (W6 m ρ c) (E m c) hn hs hd (H2 m c) (out1 m ρ c),
    k89.trans (out1 m ρ c),
    k6.trans ((W6_of_ne m ρ c main_arg6 (by decide)).trans a6), k7.trans ((W6_of_ne m ρ c main_arg7 (by decide)).trans a7)⟩

/-! ## The third region: the result -/

/-- The kernel program's result buffer ends at the reference's three layers of the arguments. -/
theorem result (c : Dev nD) :
    W8 m ρ c (Proc.devRef .tc main_v119) = val_main_v72 (F := Ideal) (H2 m c) (E m c) (Wc m c) (bc m c) := by
  obtain ⟨t1, t2, h, a6, a7⟩ := entry2 m ρ c
  refine ((W8_arr m ρ c 5).trans (Region2.arr (V7 m ρ) c)).trans ?_
  show layerPre (W7 m ρ c (Proc.devRef .tc main_v89)) (W7 m ρ c (Proc.devRef .tc main_v102)) (W7 m ρ c (Proc.devRef .tc main_v118))
    (W7 m ρ c (Proc.devRef .tc main_arg6)) (W7 m ρ c (Proc.devRef .tc main_arg7)) = _
  rw [h, t1, t2, a6, a7]
  exact pre_eq _ _ _ _

end Cert.KernelIdeal.Net

end
-- ==== Proof.RefLayers.lean ====
/-
  The reference network, layer by layer.

  The reference applies the same Chebyshev layer three times: from node features `H`, the edge list `E`, weights
  `W = (W₀, W₁, W₂)` and a bias `b` it forms `T₁ = L̂ H`, `T₂ = 2 L̂ T₁ - H` (with `L̂` the scaled Laplacian built from
  `E`: a gather by source, a scale by `-d^{-1/2}[src] d^{-1/2}[dst]`, a scatter-add by destination) and returns
  `((H W₀ + T₁ W₁) + T₂ W₂) + b`, followed by `max(·, 0)` in the two hidden layers. The reference's first layer, read
  as a function of `(H, E, W, b)`, is therefore the layer itself; this module shows that the second and the third
  layer of the reference are that same function applied to the previous layer's output: the degree normalisation the
  reference recomputes in every layer is the same term of `E` each time.
-/
import proofs.«147090_j7327214207517_1_alg».proof.Proof.RefRead

noncomputable section

namespace Cert.RefLayers

open Idealize.ShloMosaic Cert.ReferenceIdeal Cert.ReferenceIdeal.ReadP

variable {F : FTy → Type} [FloatOps F]

/-- A hidden layer: `max(((H W₀ + T₁ W₁) + T₂ W₂) + b, 0)` — the reference's first layer as a function of its inputs. -/
abbrev hidden (H : (⟨S50000x64, .f32⟩ : BufTy).Contents (Elt F)) (E : (⟨S2x1000000, .i32⟩ : BufTy).Contents (Elt F))
    (W : (⟨S3x64x64, .f32⟩ : BufTy).Contents (Elt F)) (b : (⟨S64, .f32⟩ : BufTy).Contents (Elt F)) :
    (⟨S50000x64, .f32⟩ : BufTy).Contents (Elt F) :=
  val_main_v73 (F := F) H E W b

/-- The output layer: `((H W₀ + T₁ W₁) + T₂ W₂) + b`, no rectifier. -/
abbrev output (H : (⟨S50000x64, .f32⟩ : BufTy).Contents (Elt F)) (E : (⟨S2x1000000, .i32⟩ : BufTy).Contents (Elt F))
    (W : (⟨S3x64x64, .f32⟩ : BufTy).Contents (Elt F)) (b : (⟨S64, .f32⟩ : BufTy).Contents (Elt F)) :
    (⟨S50000x64, .f32⟩ : BufTy).Contents (Elt F) :=
  val_main_v72 (F := F) H E W b

/-- The reference's second layer is the hidden layer applied to the first layer's output. -/
theorem second (x : (⟨S50000x64, .f32⟩ : BufTy).Contents (Elt F)) (E : (⟨S2x1000000, .i32⟩ : BufTy).Contents (Elt F))
    (W1 : (⟨S3x64x64, .f32⟩ : BufTy).Contents (Elt F)) (b1 : (⟨S64, .f32⟩ : BufTy).Contents (Elt F))
    (W2 : (⟨S3x64x64, .f32⟩ : BufTy).Contents (Elt F)) (b2 : (⟨S64, .f32⟩ : BufTy).Contents (Elt F)) :
    val_main_v143 (F := F) x E W1 b1 W2 b2 = hidden (hidden x E W1 b1) E W2 b2 := rfl

/-- The reference's result is the output layer applied to the second layer's output. -/
theorem third (x : (⟨S50000x64, .f32⟩ : BufTy).Contents (Elt F)) (E : (⟨S2x1000000, .i32⟩ : BufTy).Contents (Elt F))
    (W1 : (⟨S3x64x64, .f32⟩ : BufTy).Contents (Elt F)) (b1 : (⟨S64, .f32⟩ : BufTy).Contents (Elt F))
    (W2 : (⟨S3x64x64, .f32⟩ : BufTy).Contents (Elt F)) (b2 : (⟨S64, .f32⟩ : BufTy).Contents (Elt F))
    (W3 : (⟨S3x64x64, .f32⟩ : BufTy).Contents (Elt F)) (b3 : (⟨S64, .f32⟩ : BufTy).Contents (Elt F)) :
    val_main_v212 (F := F) x E W1 b1 W2 b2 W3 b3 = output (val_main_v143 (F := F) x E W1 b1 W2 b2) E W3 b3 := rfl

/-- The whole reference: three layers. -/
theorem network (x : (⟨S50000x64, .f32⟩ : BufTy).Contents (Elt F)) (E : (⟨S2x1000000, .i32⟩ : BufTy).Contents (Elt F))
    (W1 : (⟨S3x64x64, .f32⟩ : BufTy).Contents (Elt F)) (b1 : (⟨S64, .f32⟩ : BufTy).Contents (Elt F))
    (W2 : (⟨S3x64x64, .f32⟩ : BufTy).Contents (Elt F)) (b2 : (⟨S64, .f32⟩ : BufTy).Contents (Elt F))
    (W3 : (⟨S3x64x64, .f32⟩ : BufTy).Contents (Elt F)) (b3 : (⟨S64, .f32⟩ : BufTy).Contents (Elt F)) :
    val_main_v212 (F := F) x E W1 b1 W2 b2 W3 b3 = output (hidden (hidden x E W1 b1) E W2 b2) E W3 b3 :=
  (third x E W1 b1 W2 b2 W3 b3).trans (congrArg (fun h => output h E W3 b3) (second x E W1 b1 W2 b2))

end Cert.RefLayers

end
-- ==== Proof.RefNet.lean ====
/-
  The reference program's run, read as three layers.

  Every weakly fair execution of the reference terminates with its result at the composed term of its 271 host
  operations. That term is the last stage of the staged reading of the program, and the stages compose to the
  Chebyshev layer applied three times: rectified after the first and the second application, plain after the third.
-/
import proofs.«147090_j7327214207517_1_alg».proof.Proof.RefRun
import proofs.«147090_j7327214207517_1_alg».proof.Proof.RefRead
import proofs.«147090_j7327214207517_1_alg».proof.Proof.RefLayers

noncomputable section

namespace Cert.ReferenceIdeal.Net

open Cert.ReferenceIdeal Cert.ReferenceIdeal.Gen Idealize.ShloMosaic Idealize.ShloMosaic.TcCoe Idealize.SL.Sem
open Cert.ReferenceIdeal.ReadP

variable {F : FTy → Type} [FloatOps F]

set_option maxRecDepth 8192 in
/-- The run's composed term is the last stage of the staged reading, at the arguments' launch contents. -/
theorem res_eq (m : (ℓ : Loc nD τ sig) → Buf (Elt F) ℓ) (c : Dev nD) :
    Cert.ReferenceIdeal.RunP.res_main_v212 m c = val_main_v212 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.RunP.res_main_v212; rfl

/-- The reference's run: the result is the output layer of the hidden layer of the hidden layer of the features,
    each with its own weights and bias over the one edge list; the arguments end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v212)
        = val_main_v72 (F := F)
            (val_main_v73 (F := F)
              (val_main_v73 (F := F) (m ((c.tc : Thread nD τ).loc main_arg0)) (m ((c.tc : Thread nD τ).loc main_arg1))
                (m ((c.tc : Thread nD τ).loc main_arg2)) (m ((c.tc : Thread nD τ).loc main_arg3)))
              (m ((c.tc : Thread nD τ).loc main_arg1)) (m ((c.tc : Thread nD τ).loc main_arg4)) (m ((c.tc : Thread nD τ).loc main_arg5)))
            (m ((c.tc : Thread nD τ).loc main_arg1)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans ((res_eq m c).trans (Cert.RefLayers.network _ _ _ _ _ _ _ _)), (h c).2⟩)
    (Cert.ReferenceIdeal.RunP.run m ρ)

end Cert.ReferenceIdeal.Net

end
-- ==== Proof.lean ====
/-
  A three-layer Chebyshev graph network (ChebConv, K = 3) on 50000 nodes and a million edges: the kernel program
  against its jnp reference, on the extended reals.

  Both programs build, from the edge list, the scaled Laplacian `L̂ = -D^{-1/2} A D^{-1/2}` as a gather by source, a
  scale per edge and a scatter-add by destination, and apply three times the layer
  `H ↦ ((H W₀ + L̂H W₁) + (2 L̂L̂H - H) W₂) + b`, rectified after the first two. The propagation is the same host
  operations in both programs. The kernel program computes the three products, their sum and the bias in a pipelined
  region per layer, ten blocks of 5000 rows each, after rounding the operands to bf16; the reference contracts whole
  arrays in f32. On the extended reals the roundings are the identity and both sides are the same sums of the same
  entries, grouped the same way: the two results are equal with no law of arithmetic beyond reading the same entries,
  and the finiteness precondition is never opened.

  The three frames are the generated ones (the reference's is its run with the result dropped); the idealization
  rewrote nothing, so `preserves` is trivial; `algebraic` puts the kernel program's run (its result read back through
  the boundaries' contents, `KernelNet`) beside the reference's run read as three layers (`RefNet`).
-/
import proofs.«147090_j7327214207517_1_alg».proof.Defs
import proofs.«147090_j7327214207517_1_alg».proof.Proof.Gen.Kernel
import proofs.«147090_j7327214207517_1_alg».proof.Proof.Gen.Kernel.Skeleton
import proofs.«147090_j7327214207517_1_alg».proof.Proof.Gen.Kernel.Launch
import proofs.«147090_j7327214207517_1_alg».proof.Proof.Gen.Kernel.Points
import proofs.«147090_j7327214207517_1_alg».proof.Proof.Gen.Kernel.Frame
import proofs.«147090_j7327214207517_1_alg».proof.Proof.Gen.KernelIdeal
import proofs.«147090_j7327214207517_1_alg».proof.Proof.Gen.KernelIdeal.Skeleton
import proofs.«147090_j7327214207517_1_alg».proof.Proof.Gen.KernelIdeal.Launch
import proofs.«147090_j7327214207517_1_alg».proof.Proof.Gen.KernelIdeal.Points
import proofs.«147090_j7327214207517_1_alg».proof.Proof.Gen.KernelIdeal.Frame
import proofs.«147090_j7327214207517_1_alg».proof.Proof.Gen.ReferenceIdeal
import proofs.«147090_j7327214207517_1_alg».proof.Proof.Gen.Pre_finite_inputs
import proofs.«147090_j7327214207517_1_alg».proof.Proof.KernelRun
import proofs.«147090_j7327214207517_1_alg».proof.Proof.KernelNet
import proofs.«147090_j7327214207517_1_alg».proof.Proof.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Net.run (F := Ideal) m ρ)

/-- The idealization rewrote no operation. -/
theorem preserves : Cert.preserves_Kernel_KernelIdeal := trivial

/-- From memories agreeing on the arguments both programs end at the three layers of the arguments. -/
theorem algebraic : Cert.algebraic_KernelIdeal_ReferenceIdeal := by
  intro m ρ m' ρ' _ hagree
  refine ⟨fun c => Cert.ReferenceIdeal.ReadP.val_main_v72 (F := Ideal) (Cert.KernelIdeal.Net.H2 m c) (Cert.KernelIdeal.Net.E m c)
      (Cert.KernelIdeal.Net.Wc m c) (Cert.KernelIdeal.Net.bc m c), ?_, ?_⟩
  · exact (θ_run Cert.KernelIdeal.defs _ _).mono (fun _ h c => ⟨(h c).1.trans (Cert.KernelIdeal.Net.result m ρ c), (h c).2⟩)
      (Cert.KernelIdeal.Ran.run (F := Ideal) m ρ)
  · refine (θ_run Cert.ReferenceIdeal.defs _ _).mono (fun _ h c => ⟨(h c).1.trans ?_, (h c).2⟩)
      (Cert.ReferenceIdeal.Net.run (F := Ideal) m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
